-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v154)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1005 : Shape := ⟨2, ![100000, 1005]⟩
abbrev S2x1600000 : Shape := ⟨2, ![2, 1600000]⟩
abbrev S1600000 : Shape := ⟨1, ![1600000]⟩
abbrev S3x250 : Shape := ⟨2, ![3, 250]⟩
abbrev S11x250 : Shape := ⟨2, ![11, 250]⟩
abbrev S256x85 : Shape := ⟨2, ![256, 85]⟩
abbrev S1755x128 : Shape := ⟨2, ![1755, 128]⟩
abbrev S128 : Shape := ⟨1, ![128]⟩
abbrev S128x32 : Shape := ⟨2, ![128, 32]⟩
abbrev S32 : Shape := ⟨1, ![32]⟩
abbrev S32x3 : Shape := ⟨2, ![32, 3]⟩
abbrev S3 : Shape := ⟨1, ![3]⟩
abbrev S_ : Shape := ⟨0, ![]⟩

class Facts : Prop where
  bcast_S_S100000x1005 : S_.BroadcastsInDim S100000x1005 (![] : Fin 0 → Fin S100000x1005.rank)
  reducesTo_S100000x1005_S_d0_1 : S100000x1005.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S3x250 : S_.BroadcastsInDim S3x250 (![] : Fin 0 → Fin S3x250.rank)
  reducesTo_S3x250_S_d0_1 : S3x250.ReducesTo [0, 1] S_
  bcast_S_S11x250 : S_.BroadcastsInDim S11x250 (![] : Fin 0 → Fin S11x250.rank)
  reducesTo_S11x250_S_d0_1 : S11x250.ReducesTo [0, 1] S_
  bcast_S_S256x85 : S_.BroadcastsInDim S256x85 (![] : Fin 0 → Fin S256x85.rank)
  reducesTo_S256x85_S_d0_1 : S256x85.ReducesTo [0, 1] S_
  bcast_S_S1755x128 : S_.BroadcastsInDim S1755x128 (![] : Fin 0 → Fin S1755x128.rank)
  reducesTo_S1755x128_S_d0_1 : S1755x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg8 : FVec F S128x32 .f32) (main_arg9 : FVec F S32 .f32) (main_arg10 : FVec F S32x3 .f32) (main_arg11 : FVec F S3 .f32) (main_v33 : IVec S_ 1) : IVec S_ 1 :=
  let main_v34 : FVec F S128x32 .f32 := Host.absf main_arg8
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x3 .f32 := Host.absf main_arg10
  let main_cst_16 : FVec F S_ .f32 := constant S_ .f32 0x7F800000#32
  let main_v45 : FVec F S32x3 .f32 := broadcastInDim S32x3 ![] bcast_S_S32x3 main_cst_16
  let main_v46 : IVec S32x3 1 := cmpf .olt main_v44 main_v45
  let main_c_17 : IVec S_ 1 := constantI S_ 1 1#1
  let main_v47 : IVec S_ 1 := (fun x v => Host.reduce IntOp.andi x v reducesTo_S32x3_S_d0_1 h_S_) main_v46 main_c_17
  let main_v48 : IVec S_ 1 := andi main_v43 main_v47
  let main_v49 : FVec F S3 .f32 := Host.absf main_arg11
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg5 : FVec F S256x85 .f32) (main_arg6 : FVec F S1755x128 .f32) (main_arg7 : FVec F S128 .f32) (main_arg8 : FVec F S128x32 .f32) (main_arg9 : FVec F S32 .f32) (main_arg10 : FVec F S32x3 .f32) (main_arg11 : FVec F S3 .f32) (main_v13 : IVec S_ 1) (main_v16 : IVec S11x250 1) : IVec S_ 1 :=
  let main_c_5 : IVec S_ 1 := constantI S_ 1 1#1
  let main_v17 : IVec S_ 1 := (fun x v => Host.reduce IntOp.andi x v reducesTo_S11x250_S_d0_1 h_S_) main_v16 main_c_5
  let main_v18 : IVec S_ 1 := andi main_v13 main_v17
  let main_v19 : FVec F S256x85 .f32 := Host.absf main_arg5
  let main_cst_6 : FVec F S_ .f32 := constant S_ .f32 0x7F800000#32
  let main_v20 : FVec F S256x85 .f32 := broadcastInDim S256x85 ![] bcast_S_S256x85 main_cst_6
  let main_v21 : IVec S256x85 1 := cmpf .olt main_v19 main_v20
  let main_c_7 : IVec S_ 1 := constantI S_ 1 1#1
  let main_v22 : IVec S_ 1 := (fun x v => Host.reduce IntOp.andi x v reducesTo_S256x85_S_d0_1 h_S_) main_v21 main_c_7
  let main_v23 : IVec S_ 1 := andi main_v18 main_v22
  let main_v24 : FVec F S1755x128 .f32 := Host.absf main_arg6
  let main_cst_8 : FVec F S_ .f32 := constant S_ .f32 0x7F800000#32
  let main_v25 : FVec F S1755x128 .f32 := broadcastInDim S1755x128 ![] bcast_S_S1755x128 main_cst_8
  let main_v26 : IVec S1755x128 1 := cmpf .olt main_v24 main_v25
  let main_c_9 : IVec S_ 1 := constantI S_ 1 1#1
  let main_v27 : IVec S_ 1 := (fun x v => Host.reduce IntOp.andi x v reducesTo_S1755x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x1005 .f32) (main_arg1 : IVec S2x1600000 32) (main_arg2 : FVec F S1600000 .f32) (main_arg3 : FVec F S3x250 .f32) (main_arg4 : FVec F S11x250 .f32) (main_arg5 : FVec F S256x85 .f32) (main_arg6 : FVec F S1755x128 .f32) (main_arg7 : FVec F S128 .f32) (main_arg8 : FVec F S128x32 .f32) (main_arg9 : FVec F S32 .f32) (main_arg10 : FVec F S32x3 .f32) (main_arg11 : FVec F S3 .f32) : IVec S_ 1 :=
  let main_v0 : FVec F S100000x1005 .f32 := Host.absf main_arg0
  let main_cst : FVec F S_ .f32 := constant S_ .f32 0x7F800000#32
  let main_v1 : FVec F S100000x1005 .f32 := broadcastInDim S100000x1005 ![] bcast_S_S100000x1005 main_cst
  let main_v2 : IVec S100000x1005 1 := cmpf .olt main_v0 main_v1
  let main_c : IVec S_ 1 := constantI S_ 1 1#1
  let main_v3 : IVec S_ 1 := (fun x v => Host.reduce IntOp.andi x v reducesTo_S100000x1005_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S3x250 .f32 := Host.absf main_arg3
  let main_cst_2 : FVec F S_ .f32 := constant S_ .f32 0x7F800000#32
  let main_v10 : FVec F S3x250 .f32 := broadcastInDim S3x250 ![] bcast_S_S3x250 main_cst_2
  let main_v11 : IVec S3x250 1 := cmpf .olt main_v9 main_v10
  let main_c_3 : IVec S_ 1 := constantI S_ 1 1#1
  let main_v12 : IVec S_ 1 := (fun x v => Host.reduce IntOp.andi x v reducesTo_S3x250_S_d0_1 h_S_) main_v11 main_c_3
  let main_v13 : IVec S_ 1 := andi main_v8 main_v12
  let main_v14 : FVec F S11x250 .f32 := Host.absf main_arg4
  let main_cst_4 : FVec F S_ .f32 := constant S_ .f32 0x7F800000#32
  let main_v15 : FVec F S11x250 .f32 := broadcastInDim S11x250 ![] bcast_S_S11x250 main_cst_4
  let main_v16 : IVec S11x250 1 := cmpf .olt main_v14 main_v15
  fn_part1 (F := F) main_arg5 main_arg6 main_arg7 main_arg8 main_arg9 main_arg10 main_arg11 main_v13 main_v16
-- ==== Kernel.lean ====
abbrev S100000x1005 : Shape := ⟨2, ![100000, 1005]⟩
abbrev S2x1600000 : Shape := ⟨2, ![2, 1600000]⟩
abbrev S1600000 : Shape := ⟨1, ![1600000]⟩
abbrev S3x250 : Shape := ⟨2, ![3, 250]⟩
abbrev S11x250 : Shape := ⟨2, ![11, 250]⟩
abbrev S256x85 : Shape := ⟨2, ![256, 85]⟩
abbrev S1755x128 : Shape := ⟨2, ![1755, 128]⟩
abbrev S128 : Shape := ⟨1, ![128]⟩
abbrev S128x32 : Shape := ⟨2, ![128, 32]⟩
abbrev S32 : Shape := ⟨1, ![32]⟩
abbrev S32x3 : Shape := ⟨2, ![32, 3]⟩
abbrev S3 : Shape := ⟨1, ![3]⟩
abbrev S100000x1 : Shape := ⟨2, ![100000, 1]⟩
abbrev S100000 : Shape := ⟨1, ![100000]⟩
abbrev S_ : Shape := ⟨0, ![]⟩
abbrev S100000x250 : Shape := ⟨2, ![100000, 250]⟩
abbrev S100000x1000 : Shape := ⟨2, ![100000, 1000]⟩
abbrev S100000x3 : Shape := ⟨2, ![100000, 3]⟩
abbrev S100000x3x1 : Shape := ⟨3, ![100000, 3, 1]⟩
abbrev S100000x3x85 : Shape := ⟨3, ![100000, 3, 85]⟩
abbrev S100000x255 : Shape := ⟨2, ![100000, 255]⟩
abbrev S100000x1755 : Shape := ⟨2, ![100000, 1755]⟩
abbrev S1x1600000 : Shape := ⟨2, ![1, 1600000]⟩
abbrev S100000x128 : Shape := ⟨2, ![100000, 128]⟩
abbrev S1000x1755 : Shape := ⟨2, ![1000, 1755]⟩
abbrev S1000x128 : Shape := ⟨2, ![1000, 128]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩
abbrev S100000x32 : Shape := ⟨2, ![100000, 32]⟩
abbrev S10000x128 : Shape := ⟨2, ![10000, 128]⟩
abbrev S10000x32 : Shape := ⟨2, ![10000, 32]⟩
abbrev S1700000x32 : Shape := ⟨2, ![1700000, 32]⟩
abbrev S1x32 : Shape := ⟨2, ![1, 32]⟩
abbrev S1x3 : Shape := ⟨2, ![1, 3]⟩

abbrev nBuf : Space → Nat
  | .hbm => 212
  | .vmem => 10
  | .smem => 0
  | _ => 0

abbrev hbmTy0_0 (i : Nat) : BufTy := match i % 128 with
  | 0 => ⟨S100000x1005, .f32⟩
  | 1 => ⟨S2x1600000, .i32⟩
  | 2 => ⟨S1600000, .f32⟩
  | 3 => ⟨S3x250, .f32⟩
  | 4 => ⟨S11x250, .f32⟩
  | 5 => ⟨S256x85, .f32⟩
  | 6 => ⟨S1755x128, .f32⟩
  | 7 => ⟨S128, .f32⟩
  | 8 => ⟨S128x32, .f32⟩
  | 9 => ⟨S32, .f32⟩
  | 10 => ⟨S32x3, .f32⟩
  | 11 => ⟨S3, .f32⟩
  | 12 => ⟨S100000x1, .f32⟩
  | 13 => ⟨S100000, .f32⟩
  | 14 => ⟨S100000, .i32⟩
  | 15 => ⟨S_, .i32⟩
  | 16 => ⟨S100000, .i32⟩
  | 17 => ⟨S100000, .i1⟩
  | 18 => ⟨S_, .i32⟩
  | 19 => ⟨S100000, .i32⟩
  | 20 => ⟨S100000, .i32⟩
  | 21 => ⟨S100000, .i32⟩
  | 22 => ⟨S100000x1, .i32⟩
  | 23 => ⟨S100000x250, .f32⟩
  | 24 => ⟨S100000x1000, .f32⟩
  | 25 => ⟨S100000x1, .f32⟩
  | 26 => ⟨S100000, .f32⟩
  | 27 => ⟨S_, .f32⟩
  | 28 => ⟨S100000, .f32⟩
  | 29 => ⟨S100000, .f32⟩
  | 30 => ⟨S100000, .f32⟩
  | 31 => ⟨S100000, .i32⟩
  | 32 => ⟨S_, .i32⟩
  | 33 => ⟨S100000, .i32⟩
  | 34 => ⟨S100000, .i1⟩
  | 35 => ⟨S_, .i32⟩
  | 36 => ⟨S100000, .i32⟩
  | 37 => ⟨S100000, .i32⟩
  | 38 => ⟨S100000, .i32⟩
  | 39 => ⟨S100000x1, .i32⟩
  | 40 => ⟨S100000x250, .f32⟩
  | 41 => ⟨S100000x3, .f32⟩
  | 42 => ⟨S100000x3, .i32⟩
  | 43 => ⟨S_, .i32⟩
  | 44 => ⟨S100000x3, .i32⟩
  | 45 => ⟨S100000x3, .i1⟩
  | 46 => ⟨S_, .i32⟩
  | 47 => ⟨S100000x3, .i32⟩
  | 48 => ⟨S100000x3, .i32⟩
  | 49 => ⟨S100000x3, .i32⟩
  | 50 => ⟨S100000x3x1, .i32⟩
  | 51 => ⟨S100000x3x85, .f32⟩
  | 52 => ⟨S100000x255, .f32⟩
  | 53 => ⟨S100000x1755, .f32⟩
  | 54 => ⟨S1x1600000, .i32⟩
  | 55 => ⟨S1600000, .i32⟩
  | 56 => ⟨S1x1600000, .i32⟩
  | 57 => ⟨S1600000, .i32⟩
  | 58 => ⟨S100000x128, .f32⟩
  | 59 => ⟨S100000, .i32⟩
  | 60 => ⟨S1700000, .i32⟩
  | 61 => ⟨S1700000, .i32⟩
  | 62 => ⟨S_, .f32⟩
  | 63 => ⟨S100000, .f32⟩
  | 64 => ⟨S1700000, .f32⟩
  | 65 => ⟨S_, .f32⟩
  | 66 => ⟨S100000, .f32⟩
  | 67 => ⟨S_, .i32⟩
  | 68 => ⟨S1700000, .i32⟩
  | 69 => ⟨S1700000, .i1⟩
  | 70 => ⟨S_, .i32⟩
  | 71 => ⟨S1700000, .i32⟩
  | 72 => ⟨S1700000, .i32⟩
  | 73 => ⟨S1700000, .i32⟩
  | 74 => ⟨S1700000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S1700000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S1700000, .f32⟩
  | 104 => ⟨S_, .f32⟩
  | 105 => ⟨S100000x128, .f32⟩
  | 106 => ⟨S1700000x1, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x128, .f32⟩
  | 116 => ⟨S1700000x128, .f32⟩
  | 117 => ⟨S1700000x128, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S100000x128, .f32⟩
  | 127 => ⟨S1x128, .f32⟩
  | _ => ⟨S100000x1005, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S100000x32, .f32⟩
  | 6 => ⟨S100000, .i32⟩
  | 7 => ⟨S1700000, .i32⟩
  | 8 => ⟨S1700000, .i32⟩
  | 9 => ⟨S_, .f32⟩
  | 10 => ⟨S100000, .f32⟩
  | 11 => ⟨S1700000, .f32⟩
  | 12 => ⟨S_, .f32⟩
  | 13 => ⟨S100000, .f32⟩
  | 14 => ⟨S_, .i32⟩
  | 15 => ⟨S1700000, .i32⟩
  | 16 => ⟨S1700000, .i1⟩
  | 17 => ⟨S_, .i32⟩
  | 18 => ⟨S1700000, .i32⟩
  | 19 => ⟨S1700000, .i32⟩
  | 20 => ⟨S1700000, .i32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .f32⟩
  | 52 => ⟨S100000x32, .f32⟩
  | 53 => ⟨S1700000x1, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x32, .f32⟩
  | 63 => ⟨S1700000x32, .f32⟩
  | 64 => ⟨S1700000x32, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S100000x32, .f32⟩
  | 74 => ⟨S1x32, .f32⟩
  | 75 => ⟨S100000x32, .f32⟩
  | 76 => ⟨S100000x32, .f32⟩
  | 77 => ⟨S_, .f32⟩
  | 78 => ⟨S100000x32, .f32⟩
  | 79 => ⟨S100000x32, .f32⟩
  | 80 => ⟨S100000x3, .f32⟩
  | 81 => ⟨S1x3, .f32⟩
  | 82 => ⟨S100000x3, .f32⟩
  | 83 => ⟨S100000x3, .f32⟩
  | _ => ⟨S100000x1005, .f32⟩

abbrev hbmTy (i : Nat) : BufTy := match i / 128 with
  | 0 => hbmTy0_0 i
  | 1 => hbmTy0_1 i
  | _ => ⟨S100000x1005, .f32⟩

abbrev bufTy : (tb : Table) → Fin (tcTables nBuf tb) → BufTy
  | .hbm, ⟨i, _⟩ => hbmTy i
  | .local _ .vmem, ⟨0, _⟩ => ⟨S1000x1755, .f32⟩
  | .local _ .vmem, ⟨1, _⟩ => ⟨S1000x1755, .f32⟩
  | .local _ .vmem, ⟨2, _⟩ => ⟨S1755x128, .f32⟩
  | .local _ .vmem, ⟨3, _⟩ => ⟨S1000x128, .f32⟩
  | .local _ .vmem, ⟨4, _⟩ => ⟨S1000x128, .f32⟩
  | .local _ .vmem, ⟨5, _⟩ => ⟨S10000x128, .f32⟩
  | .local _ .vmem, ⟨6, _⟩ => ⟨S10000x128, .f32⟩
  | .local _ .vmem, ⟨7, _⟩ => ⟨S128x32, .f32⟩
  | .local _ .vmem, ⟨8, _⟩ => ⟨S10000x32, .f32⟩
  | .local _ .vmem, ⟨9, _⟩ => ⟨S10000x32, .f32⟩
  | _, _ => ⟨S100000x1005, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_3 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_10 : Ref sig .tc := ⟨.hbm, 80, rfl⟩
abbrev main_call1_v0 : Ref sig .tc := ⟨.hbm, 81, rfl⟩
abbrev main_call1_v1 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_c_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_15 : Ref sig .tc := ⟨.hbm, 104, rfl⟩
abbrev main_v73 : Ref sig .tc := ⟨.hbm, 105, rfl⟩
abbrev main_v74 : Ref sig .tc := ⟨.hbm, 106, rfl⟩
abbrev main_c_16 : Ref sig .tc := ⟨.hbm, 107, rfl⟩
abbrev main_v75 : Ref sig .tc := ⟨.hbm, 108, rfl⟩
abbrev main_v76 : Ref sig .tc := ⟨.hbm, 109, rfl⟩
abbrev main_c_17 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_18 : Ref sig .tc := ⟨.hbm, 118, rfl⟩
abbrev main_v84 : Ref sig .tc := ⟨.hbm, 119, rfl⟩
abbrev main_v85 : Ref sig .tc := ⟨.hbm, 120, rfl⟩
abbrev main_c_19 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_call2_cst : Ref sig .tc := ⟨.hbm, 130, rfl⟩
abbrev main_call2_v0 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_20 : Ref sig .tc := ⟨.hbm, 137, rfl⟩
abbrev main_v99 : Ref sig .tc := ⟨.hbm, 138, rfl⟩
abbrev main_v100 : Ref sig .tc := ⟨.hbm, 139, rfl⟩
abbrev main_cst_21 : Ref sig .tc := ⟨.hbm, 140, rfl⟩
abbrev main_v101 : Ref sig .tc := ⟨.hbm, 141, rfl⟩
abbrev main_c_22 : Ref sig .tc := ⟨.hbm, 142, rfl⟩
abbrev main_v102 : Ref sig .tc := ⟨.hbm, 143, rfl⟩
abbrev main_v103 : Ref sig .tc := ⟨.hbm, 144, rfl⟩
abbrev main_c_23 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_24 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_25 : Ref sig .tc := ⟨.hbm, 155, rfl⟩
abbrev main_call3_v0 : Ref sig .tc := ⟨.hbm, 156, rfl⟩
abbrev main_call3_v1 : Ref sig .tc := ⟨.hbm, 157, rfl⟩
abbrev main_v112 : Ref sig .tc := ⟨.hbm, 158, rfl⟩
abbrev main_c_26 : Ref sig .tc := ⟨.hbm, 159, rfl⟩
abbrev main_v113 : Ref sig .tc := ⟨.hbm, 160, rfl⟩
abbrev main_v114 : Ref sig .tc := ⟨.hbm, 161, rfl⟩
abbrev main_c_27 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_c_28 : Ref sig .tc := ⟨.hbm, 169, rfl⟩
abbrev main_v121 : Ref sig .tc := ⟨.hbm, 170, rfl⟩
abbrev main_v122 : Ref sig .tc := ⟨.hbm, 171, rfl⟩
abbrev main_c_29 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_30 : Ref sig .tc := ⟨.hbm, 179, rfl⟩
abbrev main_v129 : Ref sig .tc := ⟨.hbm, 180, rfl⟩
abbrev main_v130 : Ref sig .tc := ⟨.hbm, 181, rfl⟩
abbrev main_c_31 : Ref sig .tc := ⟨.hbm, 182, rfl⟩
abbrev main_v131 : Ref sig .tc := ⟨.hbm, 183, rfl⟩
abbrev main_v132 : Ref sig .tc := ⟨.hbm, 184, rfl⟩
abbrev main_c_32 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_c_33 : Ref sig .tc := ⟨.hbm, 193, rfl⟩
abbrev main_v140 : Ref sig .tc := ⟨.hbm, 194, rfl⟩
abbrev main_v141 : Ref sig .tc := ⟨.hbm, 195, rfl⟩
abbrev main_c_34 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_call4_cst : Ref sig .tc := ⟨.hbm, 205, rfl⟩
abbrev main_call4_v0 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1755 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1755x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S100000x1005_S100000x1_0_0 : S100000x1005.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x1005_S100000x1000_0_1 : S100000x1005.Slices ![0, 1] S100000x1000
  slices_S100000x1005_S100000x1_0_1001 : S100000x1005.Slices ![0, 1001] S100000x1
  slices_S100000x1005_S100000x3_0_1002 : S100000x1005.Slices ![0, 1002] S100000x3
  bcast_S_S100000x3 : S_.BroadcastsInDim S100000x3 (![] : Fin 0 → Fin S100000x3.rank)
  bcast_S100000x3_S100000x3x1_0_1 : S100000x3.BroadcastsInDim S100000x3x1 (![0, 1] : Fin 2 → Fin S100000x3x1.rank)
  shapeCasts_S100000x3x85_S100000x255 : S100000x3x85.ShapeCasts S100000x255
  concatenates_S100000x250_S100000x1000_S100000x250_S100000x255_S100000x1755_d1 : Shape.Concatenates [S100000x250, S100000x1000, S100000x250, S100000x255] S100000x1755 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S1000x1755_S1000x1755_0_0 : ∀ a, (![0, 0] : Fin 2 → Nat) a + S1000x1755.size a ≤ S1000x1755.size a
  h_S1000x1755 : 0 < S1000x1755.numel
  shapeCasts_S1000x1755_S1000x1755 : S1000x1755.ShapeCasts S1000x1755
  bitsLt_bf16_f32 : FTy.bits .bf16 < FTy.bits .f32
  inb_S1755x128_S1755x128_0_0 : ∀ a, (![0, 0] : Fin 2 → Nat) a + S1755x128.size a ≤ S1755x128.size a
  h_S1755x128 : 0 < S1755x128.numel
  inb_S1000x128_S1000x128_0_0 : ∀ a, (![0, 0] : Fin 2 → Nat) a + S1000x128.size a ≤ S1000x128.size a
  h_S1000x128 : 0 < S1000x128.numel
  concatenates_S1600000_S100000_S1700000_d0 : Shape.Concatenates [S1600000, S100000] S1700000 0
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S_S100000x128 : S_.BroadcastsInDim S100000x128 (![] : Fin 0 → Fin S100000x128.rank)
  bcast_S1700000x1_S1700000x128_0_1 : S1700000x1.BroadcastsInDim S1700000x128 (![0, 1] : Fin 2 → Fin S1700000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  bcast_S1700000x1_S1700000x32_0_1 : S1700000x1.BroadcastsInDim S1700000x32 (![0, 1] : Fin 2 → Fin S1700000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  gather_S3x250_S100000x1_S100000x250_1_0_n_n_0_1_1250_wf : GatherDims.WF S3x250 S100000x1 S100000x250 [1] [0] [] [0] [] 1 ![1, 250]
  gather_S11x250_S100000x1_S100000x250_1_0_n_n_0_1_1250_wf : GatherDims.WF S11x250 S100000x1 S100000x250 [1] [0] [] [0] [] 1 ![1, 250]
  gather_S256x85_S100000x3x1_S100000x3x85_2_0_n_n_0_2_185_wf : GatherDims.WF S256x85 S100000x3x1 S100000x3x85 [2] [0] [] [0] [] 2 ![1, 85]
  dot_S1000x1755_S1755x128_S1000x128_1_0_0_1_n_n_wf : DotDims.WF S1000x1755 S1755x128 S1000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x32_S10000x32_1_0_0_1_n_n_wf : DotDims.WF S10000x128 S128x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x3_S100000x3_1_0_0_1_n_n_wf : DotDims.WF S100000x32 S32x3 S100000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1755.size a ≤ S100000x1755.size a
  hwx0_0 : ∀ i : grid0.Coords, EltTy.bits .f32 = 32 ∨ (Rect.block (s := S100000x1755) S1000x1755.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1755x128.size a ≤ S1755x128.size a
  hwx0_1 : ∀ i : grid0.Coords, EltTy.bits .f32 = 32 ∨ (Rect.block (s := S1755x128) S1755x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S100000x128.size a
  hwx0_2 : ∀ i : grid0.Coords, EltTy.bits .f32 = 32 ∨ (Rect.block (s := S100000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x32.size a ≤ S128x32.size a
  hwx1_1 : ∀ i : grid1.Coords, EltTy.bits .f32 = 32 ∨ (Rect.block (s := S128x32) S128x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)

variable [Facts₀]

def gather_S3x250_S100000x1_S100000x250_1_0_n_n_0_1_1250 : GatherDims S3x250 S100000x1 S100000x250 where
  offsetDims := [1]
  collapsedSliceDims := [0]
  operandBatchingDims := []
  startIndicesBatchingDims := []
  startIndexMap := [0]
  indexVectorDim := 1
  sliceSizes := ![1, 250]
  wf := gather_S3x250_S100000x1_S100000x250_1_0_n_n_0_1_1250_wf
def gather_S11x250_S100000x1_S100000x250_1_0_n_n_0_1_1250 : GatherDims S11x250 S100000x1 S100000x250 where
  offsetDims := [1]
  collapsedSliceDims := [0]
  operandBatchingDims := []
  startIndicesBatchingDims := []
  startIndexMap := [0]
  indexVectorDim := 1
  sliceSizes := ![1, 250]
  wf := gather_S11x250_S100000x1_S100000x250_1_0_n_n_0_1_1250_wf
def gather_S256x85_S100000x3x1_S100000x3x85_2_0_n_n_0_2_185 : GatherDims S256x85 S100000x3x1 S100000x3x85 where
  offsetDims := [2]
  collapsedSliceDims := [0]
  operandBatchingDims := []
  startIndicesBatchingDims := []
  startIndexMap := [0]
  indexVectorDim := 2
  sliceSizes := ![1, 85]
  wf := gather_S256x85_S100000x3x1_S100000x3x85_2_0_n_n_0_2_185_wf
def dot_S1000x1755_S1755x128_S1000x128_1_0_0_1_n_n : DotDims S1000x1755 S1755x128 S1000x128 where
  lhsContracting := [1]
  rhsContracting := [0]
  lhsNonContracting := [0]
  rhsNonContracting := [1]
  lhsBatch := []
  rhsBatch := []
  wf := dot_S1000x1755_S1755x128_S1000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x3_S100000x3_1_0_0_1_n_n : DotDims S100000x32 S32x3 S100000x3 where
  lhsContracting := [1]
  rhsContracting := [0]
  lhsNonContracting := [0]
  rhsNonContracting := [1]
  lhsBatch := []
  rhsBatch := []
  wf := dot_S100000x32_S32x3_S100000x3_1_0_0_1_n_n_wf

abbrev win0_0 : Pipeline.Window sig grid0 :=
  Pipeline.Window.ofSpec (Memref.whole main_v34) S1000x1755.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S1755x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v94) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v95) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x1005 : Shape := ⟨2, ![100000, 1005]⟩
abbrev S2x1600000 : Shape := ⟨2, ![2, 1600000]⟩
abbrev S1600000 : Shape := ⟨1, ![1600000]⟩
abbrev S3x250 : Shape := ⟨2, ![3, 250]⟩
abbrev S11x250 : Shape := ⟨2, ![11, 250]⟩
abbrev S256x85 : Shape := ⟨2, ![256, 85]⟩
abbrev S1755x128 : Shape := ⟨2, ![1755, 128]⟩
abbrev S128 : Shape := ⟨1, ![128]⟩
abbrev S128x32 : Shape := ⟨2, ![128, 32]⟩
abbrev S32 : Shape := ⟨1, ![32]⟩
abbrev S32x3 : Shape := ⟨2, ![32, 3]⟩
abbrev S3 : Shape := ⟨1, ![3]⟩
abbrev S100000x1 : Shape := ⟨2, ![100000, 1]⟩
abbrev S100000 : Shape := ⟨1, ![100000]⟩
abbrev S_ : Shape := ⟨0, ![]⟩
abbrev S100000x250 : Shape := ⟨2, ![100000, 250]⟩
abbrev S100000x1000 : Shape := ⟨2, ![100000, 1000]⟩
abbrev S100000x3 : Shape := ⟨2, ![100000, 3]⟩
abbrev S100000x3x1 : Shape := ⟨3, ![100000, 3, 1]⟩
abbrev S100000x3x85 : Shape := ⟨3, ![100000, 3, 85]⟩
abbrev S100000x255 : Shape := ⟨2, ![100000, 255]⟩
abbrev S100000x1755 : Shape := ⟨2, ![100000, 1755]⟩
abbrev S1x1600000 : Shape := ⟨2, ![1, 1600000]⟩
abbrev S100000x128 : Shape := ⟨2, ![100000, 128]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩
abbrev S100000x32 : Shape := ⟨2, ![100000, 32]⟩
abbrev S1700000x32 : Shape := ⟨2, ![1700000, 32]⟩
abbrev S1x32 : Shape := ⟨2, ![1, 32]⟩
abbrev S1x3 : Shape := ⟨2, ![1, 3]⟩

abbrev nBuf : Space → Nat
  | .hbm => 212
  | .vmem => 0
  | .smem => 0
  | _ => 0

abbrev hbmTy0_0 (i : Nat) : BufTy := match i % 128 with
  | 0 => ⟨S100000x1005, .f32⟩
  | 1 => ⟨S2x1600000, .i32⟩
  | 2 => ⟨S1600000, .f32⟩
  | 3 => ⟨S3x250, .f32⟩
  | 4 => ⟨S11x250, .f32⟩
  | 5 => ⟨S256x85, .f32⟩
  | 6 => ⟨S1755x128, .f32⟩
  | 7 => ⟨S128, .f32⟩
  | 8 => ⟨S128x32, .f32⟩
  | 9 => ⟨S32, .f32⟩
  | 10 => ⟨S32x3, .f32⟩
  | 11 => ⟨S3, .f32⟩
  | 12 => ⟨S100000x1, .f32⟩
  | 13 => ⟨S100000, .f32⟩
  | 14 => ⟨S100000, .i32⟩
  | 15 => ⟨S_, .i32⟩
  | 16 => ⟨S100000, .i32⟩
  | 17 => ⟨S100000, .i1⟩
  | 18 => ⟨S_, .i32⟩
  | 19 => ⟨S100000, .i32⟩
  | 20 => ⟨S100000, .i32⟩
  | 21 => ⟨S100000, .i32⟩
  | 22 => ⟨S100000x1, .i32⟩
  | 23 => ⟨S100000x250, .f32⟩
  | 24 => ⟨S100000x1000, .f32⟩
  | 25 => ⟨S100000x1, .f32⟩
  | 26 => ⟨S100000, .f32⟩
  | 27 => ⟨S_, .f32⟩
  | 28 => ⟨S100000, .f32⟩
  | 29 => ⟨S100000, .f32⟩
  | 30 => ⟨S100000, .f32⟩
  | 31 => ⟨S100000, .i32⟩
  | 32 => ⟨S_, .i32⟩
  | 33 => ⟨S100000, .i32⟩
  | 34 => ⟨S100000, .i1⟩
  | 35 => ⟨S_, .i32⟩
  | 36 => ⟨S100000, .i32⟩
  | 37 => ⟨S100000, .i32⟩
  | 38 => ⟨S100000, .i32⟩
  | 39 => ⟨S100000x1, .i32⟩
  | 40 => ⟨S100000x250, .f32⟩
  | 41 => ⟨S100000x3, .f32⟩
  | 42 => ⟨S100000x3, .i32⟩
  | 43 => ⟨S_, .i32⟩
  | 44 => ⟨S100000x3, .i32⟩
  | 45 => ⟨S100000x3, .i1⟩
  | 46 => ⟨S_, .i32⟩
  | 47 => ⟨S100000x3, .i32⟩
  | 48 => ⟨S100000x3, .i32⟩
  | 49 => ⟨S100000x3, .i32⟩
  | 50 => ⟨S100000x3x1, .i32⟩
  | 51 => ⟨S100000x3x85, .f32⟩
  | 52 => ⟨S100000x255, .f32⟩
  | 53 => ⟨S100000x1755, .f32⟩
  | 54 => ⟨S1x1600000, .i32⟩
  | 55 => ⟨S1600000, .i32⟩
  | 56 => ⟨S1x1600000, .i32⟩
  | 57 => ⟨S1600000, .i32⟩
  | 58 => ⟨S100000x128, .f32⟩
  | 59 => ⟨S100000, .i32⟩
  | 60 => ⟨S1700000, .i32⟩
  | 61 => ⟨S1700000, .i32⟩
  | 62 => ⟨S_, .f32⟩
  | 63 => ⟨S100000, .f32⟩
  | 64 => ⟨S1700000, .f32⟩
  | 65 => ⟨S_, .f32⟩
  | 66 => ⟨S100000, .f32⟩
  | 67 => ⟨S_, .i32⟩
  | 68 => ⟨S1700000, .i32⟩
  | 69 => ⟨S1700000, .i1⟩
  | 70 => ⟨S_, .i32⟩
  | 71 => ⟨S1700000, .i32⟩
  | 72 => ⟨S1700000, .i32⟩
  | 73 => ⟨S1700000, .i32⟩
  | 74 => ⟨S1700000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S1700000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S1700000, .f32⟩
  | 104 => ⟨S_, .f32⟩
  | 105 => ⟨S100000x128, .f32⟩
  | 106 => ⟨S1700000x1, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x128, .f32⟩
  | 116 => ⟨S1700000x128, .f32⟩
  | 117 => ⟨S1700000x128, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S100000x128, .f32⟩
  | 127 => ⟨S1x128, .f32⟩
  | _ => ⟨S100000x1005, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S100000x32, .f32⟩
  | 6 => ⟨S100000, .i32⟩
  | 7 => ⟨S1700000, .i32⟩
  | 8 => ⟨S1700000, .i32⟩
  | 9 => ⟨S_, .f32⟩
  | 10 => ⟨S100000, .f32⟩
  | 11 => ⟨S1700000, .f32⟩
  | 12 => ⟨S_, .f32⟩
  | 13 => ⟨S100000, .f32⟩
  | 14 => ⟨S_, .i32⟩
  | 15 => ⟨S1700000, .i32⟩
  | 16 => ⟨S1700000, .i1⟩
  | 17 => ⟨S_, .i32⟩
  | 18 => ⟨S1700000, .i32⟩
  | 19 => ⟨S1700000, .i32⟩
  | 20 => ⟨S1700000, .i32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .f32⟩
  | 52 => ⟨S100000x32, .f32⟩
  | 53 => ⟨S1700000x1, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x32, .f32⟩
  | 63 => ⟨S1700000x32, .f32⟩
  | 64 => ⟨S1700000x32, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S100000x32, .f32⟩
  | 74 => ⟨S1x32, .f32⟩
  | 75 => ⟨S100000x32, .f32⟩
  | 76 => ⟨S100000x32, .f32⟩
  | 77 => ⟨S_, .f32⟩
  | 78 => ⟨S100000x32, .f32⟩
  | 79 => ⟨S100000x32, .f32⟩
  | 80 => ⟨S100000x3, .f32⟩
  | 81 => ⟨S1x3, .f32⟩
  | 82 => ⟨S100000x3, .f32⟩
  | 83 => ⟨S100000x3, .f32⟩
  | _ => ⟨S100000x1005, .f32⟩

abbrev hbmTy (i : Nat) : BufTy := match i / 128 with
  | 0 => hbmTy0_0 i
  | 1 => hbmTy0_1 i
  | _ => ⟨S100000x1005, .f32⟩

abbrev bufTy : (tb : Table) → Fin (tcTables nBuf tb) → BufTy
  | .hbm, ⟨i, _⟩ => hbmTy i
  | _, _ => ⟨S100000x1005, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_3 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_10 : Ref sig .tc := ⟨.hbm, 80, rfl⟩
abbrev main_call1_v0 : Ref sig .tc := ⟨.hbm, 81, rfl⟩
abbrev main_call1_v1 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_c_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_15 : Ref sig .tc := ⟨.hbm, 104, rfl⟩
abbrev main_v73 : Ref sig .tc := ⟨.hbm, 105, rfl⟩
abbrev main_v74 : Ref sig .tc := ⟨.hbm, 106, rfl⟩
abbrev main_c_16 : Ref sig .tc := ⟨.hbm, 107, rfl⟩
abbrev main_v75 : Ref sig .tc := ⟨.hbm, 108, rfl⟩
abbrev main_v76 : Ref sig .tc := ⟨.hbm, 109, rfl⟩
abbrev main_c_17 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_18 : Ref sig .tc := ⟨.hbm, 118, rfl⟩
abbrev main_v84 : Ref sig .tc := ⟨.hbm, 119, rfl⟩
abbrev main_v85 : Ref sig .tc := ⟨.hbm, 120, rfl⟩
abbrev main_c_19 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_call2_cst : Ref sig .tc := ⟨.hbm, 130, rfl⟩
abbrev main_call2_v0 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_20 : Ref sig .tc := ⟨.hbm, 137, rfl⟩
abbrev main_v99 : Ref sig .tc := ⟨.hbm, 138, rfl⟩
abbrev main_v100 : Ref sig .tc := ⟨.hbm, 139, rfl⟩
abbrev main_cst_21 : Ref sig .tc := ⟨.hbm, 140, rfl⟩
abbrev main_v101 : Ref sig .tc := ⟨.hbm, 141, rfl⟩
abbrev main_c_22 : Ref sig .tc := ⟨.hbm, 142, rfl⟩
abbrev main_v102 : Ref sig .tc := ⟨.hbm, 143, rfl⟩
abbrev main_v103 : Ref sig .tc := ⟨.hbm, 144, rfl⟩
abbrev main_c_23 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_24 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_25 : Ref sig .tc := ⟨.hbm, 155, rfl⟩
abbrev main_call3_v0 : Ref sig .tc := ⟨.hbm, 156, rfl⟩
abbrev main_call3_v1 : Ref sig .tc := ⟨.hbm, 157, rfl⟩
abbrev main_v112 : Ref sig .tc := ⟨.hbm, 158, rfl⟩
abbrev main_c_26 : Ref sig .tc := ⟨.hbm, 159, rfl⟩
abbrev main_v113 : Ref sig .tc := ⟨.hbm, 160, rfl⟩
abbrev main_v114 : Ref sig .tc := ⟨.hbm, 161, rfl⟩
abbrev main_c_27 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_c_28 : Ref sig .tc := ⟨.hbm, 169, rfl⟩
abbrev main_v121 : Ref sig .tc := ⟨.hbm, 170, rfl⟩
abbrev main_v122 : Ref sig .tc := ⟨.hbm, 171, rfl⟩
abbrev main_c_29 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_30 : Ref sig .tc := ⟨.hbm, 179, rfl⟩
abbrev main_v129 : Ref sig .tc := ⟨.hbm, 180, rfl⟩
abbrev main_v130 : Ref sig .tc := ⟨.hbm, 181, rfl⟩
abbrev main_c_31 : Ref sig .tc := ⟨.hbm, 182, rfl⟩
abbrev main_v131 : Ref sig .tc := ⟨.hbm, 183, rfl⟩
abbrev main_v132 : Ref sig .tc := ⟨.hbm, 184, rfl⟩
abbrev main_c_32 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_c_33 : Ref sig .tc := ⟨.hbm, 193, rfl⟩
abbrev main_v140 : Ref sig .tc := ⟨.hbm, 194, rfl⟩
abbrev main_v141 : Ref sig .tc := ⟨.hbm, 195, rfl⟩
abbrev main_c_34 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_call4_cst : Ref sig .tc := ⟨.hbm, 205, rfl⟩
abbrev main_call4_v0 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩

abbrev nD : Nat := 1
abbrev τ : Topo := Topo.v7x

variable {F : FTy → Type} [FloatOps F]

class Facts₀ : Prop where
  slices_S100000x1005_S100000x1_0_0 : S100000x1005.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x1005_S100000x1000_0_1 : S100000x1005.Slices ![0, 1] S100000x1000
  slices_S100000x1005_S100000x1_0_1001 : S100000x1005.Slices ![0, 1001] S100000x1
  slices_S100000x1005_S100000x3_0_1002 : S100000x1005.Slices ![0, 1002] S100000x3
  bcast_S_S100000x3 : S_.BroadcastsInDim S100000x3 (![] : Fin 0 → Fin S100000x3.rank)
  bcast_S100000x3_S100000x3x1_0_1 : S100000x3.BroadcastsInDim S100000x3x1 (![0, 1] : Fin 2 → Fin S100000x3x1.rank)
  shapeCasts_S100000x3x85_S100000x255 : S100000x3x85.ShapeCasts S100000x255
  concatenates_S100000x250_S100000x1000_S100000x250_S100000x255_S100000x1755_d1 : Shape.Concatenates [S100000x250, S100000x1000, S100000x250, S100000x255] S100000x1755 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S_S100000x128 : S_.BroadcastsInDim S100000x128 (![] : Fin 0 → Fin S100000x128.rank)
  bcast_S1700000x1_S1700000x128_0_1 : S1700000x1.BroadcastsInDim S1700000x128 (![0, 1] : Fin 2 → Fin S1700000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x32 : S_.BroadcastsInDim S100000x32 (![] : Fin 0 → Fin S100000x32.rank)
  bcast_S1700000x1_S1700000x32_0_1 : S1700000x1.BroadcastsInDim S1700000x32 (![0, 1] : Fin 2 → Fin S1700000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  gather_S3x250_S100000x1_S100000x250_1_0_n_n_0_1_1250_wf : GatherDims.WF S3x250 S100000x1 S100000x250 [1] [0] [] [0] [] 1 ![1, 250]
  gather_S11x250_S100000x1_S100000x250_1_0_n_n_0_1_1250_wf : GatherDims.WF S11x250 S100000x1 S100000x250 [1] [0] [] [0] [] 1 ![1, 250]
  gather_S256x85_S100000x3x1_S100000x3x85_2_0_n_n_0_2_185_wf : GatherDims.WF S256x85 S100000x3x1 S100000x3x85 [2] [0] [] [0] [] 2 ![1, 85]
  dot_S100000x1755_S1755x128_S100000x128_1_0_0_1_n_n_wf : DotDims.WF S100000x1755 S1755x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x32_S100000x32_1_0_0_1_n_n_wf : DotDims.WF S100000x128 S128x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x3_S100000x3_1_0_0_1_n_n_wf : DotDims.WF S100000x32 S32x3 S100000x3 [1] [0] [0] [1] [] []

variable [Facts₀]

def gather_S3x250_S100000x1_S100000x250_1_0_n_n_0_1_1250 : GatherDims S3x250 S100000x1 S100000x250 where
  offsetDims := [1]
  collapsedSliceDims := [0]
  operandBatchingDims := []
  startIndicesBatchingDims := []
  startIndexMap := [0]
  indexVectorDim := 1
  sliceSizes := ![1, 250]
  wf := gather_S3x250_S100000x1_S100000x250_1_0_n_n_0_1_1250_wf
def gather_S11x250_S100000x1_S100000x250_1_0_n_n_0_1_1250 : GatherDims S11x250 S100000x1 S100000x250 where
  offsetDims := [1]
  collapsedSliceDims := [0]
  operandBatchingDims := []
  startIndicesBatchingDims := []
  startIndexMap := [0]
  indexVectorDim := 1
  sliceSizes := ![1, 250]
  wf := gather_S11x250_S100000x1_S100000x250_1_0_n_n_0_1_1250_wf
def gather_S256x85_S100000x3x1_S100000x3x85_2_0_n_n_0_2_185 : GatherDims S256x85 S100000x3x1 S100000x3x85 where
  offsetDims := [2]
  collapsedSliceDims := [0]
  operandBatchingDims := []
  startIndicesBatchingDims := []
  startIndexMap := [0]
  indexVectorDim := 2
  sliceSizes := ![1, 85]
  wf := gather_S256x85_S100000x3x1_S100000x3x85_2_0_n_n_0_2_185_wf
def dot_S100000x1755_S1755x128_S100000x128_1_0_0_1_n_n : DotDims S100000x1755 S1755x128 S100000x128 where
  lhsContracting := [1]
  rhsContracting := [0]
  lhsNonContracting := [0]
  rhsNonContracting := [1]
  lhsBatch := []
  rhsBatch := []
  wf := dot_S100000x1755_S1755x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x3_S100000x3_1_0_0_1_n_n : DotDims S100000x32 S32x3 S100000x3 where
  lhsContracting := [1]
  rhsContracting := [0]
  lhsNonContracting := [0]
  rhsNonContracting := [1]
  lhsBatch := []
  rhsBatch := []
  wf := dot_S100000x32_S32x3_S100000x3_1_0_0_1_n_n_wf

class Facts : Prop extends Facts₀ where

variable [Facts]
-- ==== Proof.KBody0.lean ====
/-
  The row-blocked matrix product of pallas_call 0, at one grid point: the body loads a block of rows of the left factor
  and the whole right factor, rounds both to bf16, multiplies them into a zero accumulator and stores the product block.
  Proved here, at any float instance: from the three staging buffers held whole the body runs to its end without a
  fault, leaves the factors' buffers unchanged and the product's buffer at the product of the two blocks
  (`out0_2`); and the pipeline's body obligation over proof data whose arrays are the contents `V` the region is
  entered with.
-/
import proofs.«169225_j59287728554039_1_alg».proof.Proof.Gen.Kernel.Launch
import proofs.«169225_j59287728554039_1_alg».proof.Proof.Gen.Kernel.Skeleton
import proofs.«169225_j59287728554039_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The matrix product of pallas_call 0: the body at one grid point, over the region-entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds its row block at every point: a block of rows is fetched afresh at each point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor's staging buffer holds the whole weight matrix at every point: it is fetched once, its block
    index never moves, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-block rectangles the body reads and writes. -/
abbrev rA0 : Rect S1000x1755 := Rect.unit (s := S1000x1755) ![0, 0] S1000x1755.size inb_S1000x1755_S1000x1755_0_0
abbrev rB0 : Rect S1755x128 := Rect.unit (s := S1755x128) ![0, 0] S1755x128.size inb_S1755x128_S1755x128_0_0
abbrev rC0 : Rect S1000x128 := Rect.unit (s := S1000x128) ![0, 0] S1000x128.size inb_S1000x128_S1000x128_0_0

/-- What the body leaves in the product's staging buffer, from the two factor blocks: one whole-block store of the
    product of the row block with the weight matrix. -/
def out0_2 (x0 : Vec F S1000x1755 .f32) (x1 : Vec F S1755x128 .f32) : Vec F S1000x128 .f32 :=
  View.canon [⟨rC0, k0_pay1 (View.ld x0 rA0) (View.ld x1 rB0)⟩]

/-- The one store covers the whole staging buffer. -/
theorem cover0_2 (p0 : Vec F S1000x128 .f32) (y : S1000x128.Idx) :
    ∃ pc ∈ ([⟨rC0, p0⟩] : List (View.Piece (Elt F) S1000x128 .f32)), y ∈ pc.1.set :=
  View.cover_of_tiled [⟨rC0, p0⟩] S1000x128.size (by rfl) y

set_option maxHeartbeats 1000000 in
/-- The body on whole staging buffers — the factors' at `x0`, `x1`, the product's at anything — runs to its end,
    leaves the factors' buffers as they were and the product's at `out0_2 x0 x1`. -/
theorem sound_kernel0 (c : Dev nD) (E : Set ℕ) (i : grid0.Coords) (arg1 : Memref sig .tc .vmem S1000x1755 .f32) (harg1 : arg1.IsWhole)
    (arg2 : Memref sig .tc .vmem S1755x128 .f32) (harg2 : arg2.IsWhole) (arg3 : Memref sig .tc .vmem S1000x128 .f32) (harg3 : arg3.IsWhole)
    (x0 : Vec F S1000x1755 .f32) (x1 : Vec F S1755x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each
    factor's buffer at its block and the product's at `out0_2` of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the factors' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Mm

end
-- ==== Proof.KBody1.lean ====
/-
  The row-blocked matrix product of pallas_call 1, at one grid point: the body loads a block of rows of the left factor
  and the whole right factor, rounds both to bf16, multiplies them into a zero accumulator and stores the product block.
  Proved here, at any float instance: from the three staging buffers held whole the body runs to its end without a
  fault, leaves the factors' buffers unchanged and the product's buffer at the product of the two blocks
  (`out1_2`); and the pipeline's body obligation over proof data whose arrays are the contents `V` the region is
  entered with.
-/
import proofs.«169225_j59287728554039_1_alg».proof.Proof.Gen.Kernel.Launch
import proofs.«169225_j59287728554039_1_alg».proof.Proof.Gen.Kernel.Skeleton
import proofs.«169225_j59287728554039_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The matrix product of pallas_call 1: the body at one grid point, over the region-entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left factor's staging buffer holds its row block at every point: a block of rows is fetched afresh at each point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right factor's staging buffer holds the whole weight matrix at every point: it is fetched once, its block
    index never moves, and the body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The three whole-block rectangles the body reads and writes. -/
abbrev rA1 : Rect S10000x128 := Rect.unit (s := S10000x128) ![0, 0] S10000x128.size inb_S10000x128_S10000x128_0_0
abbrev rB1 : Rect S128x32 := Rect.unit (s := S128x32) ![0, 0] S128x32.size inb_S128x32_S128x32_0_0
abbrev rC1 : Rect S10000x32 := Rect.unit (s := S10000x32) ![0, 0] S10000x32.size inb_S10000x32_S10000x32_0_0

/-- What the body leaves in the product's staging buffer, from the two factor blocks: one whole-block store of the
    product of the row block with the weight matrix. -/
def out1_2 (x0 : Vec F S10000x128 .f32) (x1 : Vec F S128x32 .f32) : Vec F S10000x32 .f32 :=
  View.canon [⟨rC1, k1_pay1 (View.ld x0 rA1) (View.ld x1 rB1)⟩]

/-- The one store covers the whole staging buffer. -/
theorem cover1_2 (p0 : Vec F S10000x32 .f32) (y : S10000x32.Idx) :
    ∃ pc ∈ ([⟨rC1, p0⟩] : List (View.Piece (Elt F) S10000x32 .f32)), y ∈ pc.1.set :=
  View.cover_of_tiled [⟨rC1, p0⟩] S10000x32.size (by rfl) y

set_option maxHeartbeats 1000000 in
/-- The body on whole staging buffers — the factors' at `x0`, `x1`, the product's at anything — runs to its end,
    leaves the factors' buffers as they were and the product's at `out1_2 x0 x1`. -/
theorem sound_kernel1 (c : Dev nD) (E : Set ℕ) (i : grid1.Coords) (arg1 : Memref sig .tc .vmem S10000x128 .f32) (harg1 : arg1.IsWhole)
    (arg2 : Memref sig .tc .vmem S128x32 .f32) (harg2 : arg2.IsWhole) (arg3 : Memref sig .tc .vmem S10000x32 .f32) (harg3 : arg3.IsWhole)
    (x0 : Vec F S10000x128 .f32) (x1 : Vec F S128x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at point `t` each
    factor's buffer at its block and the product's at `out1_2` of the two blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the factors' buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Mm

end
-- ==== Proof.KRun.lean ====
/-
  The whole run of the program: host operations, the first row-blocked matrix product (pallas_call 0), host operations,
  the second product (pallas_call 1), host operations. The buffer contents between the program's items are a fold from
  the launch memory: a host stretch applies its operations; a pallas_call replaces its product array by what its
  grid's write-backs leave (`prod0`, `prod1`) and changes nothing else. Proved here, at any float instance: every
  weakly fair execution terminates without a fault, and the final memory holds every unscoped buffer at the end of
  that fold (`run_all`) — in particular each argument as launched (`frame`) and the result buffer at the last
  stretch's term over the second product (`run_result`).
-/
import proofs.«169225_j59287728554039_1_alg».proof.Proof.Gen.Kernel.Regions
import proofs.«169225_j59287728554039_1_alg».proof.Proof.KBody0
import proofs.«169225_j59287728554039_1_alg».proof.Proof.KBody1

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents each pallas_call is entered with and leaves -/

/-- What pallas_call 0 finds: the launch memory after the three host stretches before it. -/
abbrev ent0 : (c : Dev nD) → (b : Ref sig .tc) → Buf (Elt F) ((c : Thread nD τ).loc b) := fun c b => V3 m c b

/-- What pallas_call 0 leaves in the first product's array: its write-backs folded over the grid. -/
def prod0 (c : Dev nD) : Buf (Elt F) ((c : Thread nD τ).loc main_v39) := (dat0 (ent0 m) c).arrAt 2 cfg0.N

/-- The contents after pallas_call 0, as the unknowns the fold is written over. -/
def outsA : Outs (F := F) := fun _ r c => Function.update (V3 m c) main_v39 (prod0 m c) r

/-- What pallas_call 1 finds: those contents after the four host stretches between the calls. -/
abbrev ent1 : (c : Dev nD) → (b : Ref sig .tc) → Buf (Elt F) ((c : Thread nD τ).loc b) := fun c b => V8 m (outsA m) c b

/-- What pallas_call 1 leaves in the second product's array. -/
def prod1 (c : Dev nD) : Buf (Elt F) ((c : Thread nD τ).loc main_v95) := (dat1 (ent1 m) c).arrAt 2 cfg1.N

/-- Both calls' results as the fold's unknowns: after item 8 (pallas_call 1) the second product, before it the first. -/
def outs : Outs (F := F) := fun J r c =>
  if J = 9 then Function.update (V8 m (outsA m) c) main_v95 (prod1 m c) r else outsA m J r c

theorem outs_4 (c : Dev nD) : outs m 4 main_v39 c = prod0 m c := by
  unfold outs; rw [if_neg (by decide)]; unfold outsA; exact Function.update_self ..

theorem outs_9 (c : Dev nD) : outs m 9 main_v95 c = prod1 m c := by
  unfold outs; rw [if_pos rfl]; exact Function.update_self ..

theorem V4_outs (c : Dev nD) : V4 m (outs m) c = V4 m (outsA m) c := by
  show Function.update (V3 m c) main_v39 (outs m 4 main_v39 c) = Function.update (V3 m c) main_v39 (outsA m 4 main_v39 c)
  rw [outs_4]; unfold outsA; rw [Function.update_self]

theorem V8_outs (c : Dev nD) : V8 m (outs m) c = V8 m (outsA m) c := by
  show StableHlo.after hostOps1_3 (StableHlo.after hostOps1_2 (StableHlo.after hostOps1_1 (StableHlo.after hostOps1 (V4 m (outs m) c))))
    = StableHlo.after hostOps1_3 (StableHlo.after hostOps1_2 (StableHlo.after hostOps1_1 (StableHlo.after hostOps1 (V4 m (outsA m) c))))
  rw [V4_outs]

/-- The first product's array after pallas_call 0 is what its write-backs leave. -/
theorem V4_prod (c : Dev nD) : V4 m (outs m) c main_v39 = prod0 m c := by
  show Function.update (V3 m c) main_v39 (outs m 4 main_v39 c) main_v39 = _
  rw [Function.update_self, outs_4]

/-- The second product's array after pallas_call 1 is what its write-backs leave. -/
theorem V9_prod (c : Dev nD) : V9 m (outs m) c main_v95 = prod1 m c := by
  show Function.update (V8 m (outs m) c) main_v95 (outs m 9 main_v95 c) main_v95 = _
  rw [Function.update_self, outs_9]

/-- After pallas_call 0 each of its arrays holds what the pipeline leaves: a factor as entered, the product at `prod0`. -/
theorem hF0 (c : Dev nD) (w : Fin cfg0.W) : (dat0 (ent0 m) c).arrAt w cfg0.N = V4 m (outs m) c (Pipeline.arrRef spec0 w) := by
  fin_cases w
  · exact ((dat0 (ent0 m) c).arrAt_in 0 rfl _).trans ((A_eq0 (ent0 m) c 0).trans (V4_of m (outs m) c (Pipeline.arrRef spec0 0) (by decide)).symm)
  · exact ((dat0 (ent0 m) c).arrAt_in 1 rfl _).trans ((A_eq0 (ent0 m) c 1).trans (V4_of m (outs m) c (Pipeline.arrRef spec0 1) (by decide)).symm)
  · exact (V4_prod m c).symm
/-- Every other buffer is as entered. -/
theorem hrest0 (c : Dev nD) : ∀ b, b ∉ Finset.univ.image (Pipeline.arrRef spec0) → V4 m (outs m) c b = ent0 m c b :=
  fun b hb => V4_of m (outs m) c b fun h => hb (by
    rw [List.mem_singleton] at h; subst h; exact Finset.mem_image.mpr ⟨2, Finset.mem_univ _, rfl⟩)

theorem hF1 (c : Dev nD) (w : Fin cfg1.W) : (dat1 (ent1 m) c).arrAt w cfg1.N = V9 m (outs m) c (Pipeline.arrRef spec1 w) := by
  fin_cases w
  · exact ((dat1 (ent1 m) c).arrAt_in 0 rfl _).trans ((A_eq1 (ent1 m) c 0).trans (((V9_of m (outs m) c (Pipeline.arrRef spec1 0) (by decide)).trans (congrFun (V8_outs m c) _)).symm))
  · exact ((dat1 (ent1 m) c).arrAt_in 1 rfl _).trans ((A_eq1 (ent1 m) c 1).trans (((V9_of m (outs m) c (Pipeline.arrRef spec1 1) (by decide)).trans (congrFun (V8_outs m c) _)).symm))
  · exact (V9_prod m c).symm
theorem hrest1 (c : Dev nD) : ∀ b, b ∉ Finset.univ.image (Pipeline.arrRef spec1) → V9 m (outs m) c b = ent1 m c b :=
  fun b hb => (V9_of m (outs m) c b fun h => hb (by
    rw [List.mem_singleton] at h; subst h; exact Finset.mem_image.mpr ⟨2, Finset.mem_univ _, rfl⟩)).trans (congrFun (V8_outs m c) _)

/-! ## The proof data family and the thread state -/

/-- Each pipeline's proof data at its entry contents. -/
def pdats : (p : Fin 2) → (c : Dev nD) → Dat τ (Elt F) Unit ℕ (UR sig nD τ) ℕ (cfgs p) c
  | ⟨0, _⟩ => fun c => dat0 (ent0 m) c
  | ⟨1, _⟩ => fun c => dat1 (ent1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the library's entry and exit lemmas are stated over the pinned configuration; unifying them with the printed one
-- needs plain definitions unfolded in a metavariable's type
set_option backward.isDefEq.respectTransparency.types false in
/-- Pallas_call 0 over the thread state "every unscoped buffer at the contents before it, the generator register at
    some state, nothing owed": its three arrays are split out of the unscoped buffers on entry and put back on exit with the
    product's array at what the write-backs leave; the generator register goes into the pipeline's invariant and comes
    back; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (ent0 m c) (fun b => (V4 m (outs m) c) b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]
    · iexact HY
    unfold Pipeline.Dat.owesAt Pipeline.owesWithin
    icases HO with ⟨%W, -, HO⟩; iexists W; iexact HO

-- the library's entry and exit lemmas are stated over the pinned configuration; unifying them with the printed one
-- needs plain definitions unfolded in a metavariable's type
set_option backward.isDefEq.respectTransparency.types false in
/-- Pallas_call 1 over the thread state "every unscoped buffer at the contents before it, the generator register at
    some state, nothing owed": its three arrays are split out of the unscoped buffers on entry and put back on exit with the
    product's array at what the write-backs leave; the generator register goes into the pipeline's invariant and comes
    back; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (V8 m (outsA m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (ent1 m c) (fun b => (V9 m (outs m) c) b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]
    · iexact HY
    unfold Pipeline.Dat.owesAt Pipeline.owesWithin
    icases HO with ⟨%W, -, HO⟩; iexists W; iexact HO

/-! ## The run -/

-- the launch theorem's implicit arguments are found by unifying its conclusion with this one, which takes unfolding
-- plain definitions in a metavariable's type
set_option backward.isDefEq.respectTransparency.types false in
/-- The run, given the two calls' records over this fold's thread states: every weakly fair execution of the program
    from memory `m` with zero counters terminates, and the final memory holds every unscoped buffer at the end of the
    fold. (The conditional frame of the host side, with the whole last valuation read back instead of the arguments only.) -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) Gen.adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) Gen.adm pdats ι defs₀ 𝒱₀ L lv 1)
    (hpre1 : ∀ c : Dev nD, iprop(StableHlo.held (c : Thread nD τ) (Pipeline.ucRefs τ sig) (V8 m outs c) ∗ E 1 c) ⊢ R1.pre c)
    (hpost1 : ∀ c : Dev nD, R1.post c ⊢ iprop(StableHlo.held (c : Thread nD τ) (Pipeline.ucRefs τ sig) (V9 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V14 m outs c b) := by
  refine Pipeline.θ_run_regions_kit_dev (pcfgs (F := F)) Gen.adm pdats ι cellOf_inj EP defs₀ 𝒱₀ L lv m ρ main
    (Gen.segs m outs 𝒱₀ L lv E ι pdats R0 R1)
    (fun c Q => by
      rewrite [main_chain c, Seg.run_eq_chain,
        show (Gen.segs m outs 𝒱₀ L lv E ι pdats R0 R1 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [Gen.segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V14 m outs c))
    (hch := fun c => ⟨.rfl, .rfl, .rfl, hpre0 c, hpost0 c, .rfl, .rfl, .rfl, hpre1 c, hpost1 c, .rfl, .rfl, .rfl, .rfl, sep_mono .rfl (hE2 c)⟩)
    (hinit := ?_) (QY := fun c s => ∀ b ∈ Pipeline.ucRefs τ sig, s.mem ((c : Thread nD τ).1, b) = V14 m outs c b)
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V14 m outs c) s') $$ [Hh HSI]
    · isplitl [Hh] <;> iassumption
    icases Hr with ⟨%h, HSI⟩
    imodintro
    isplitr
    · ipureintro
      exact h
    · iexact HSI

/-- The run: every weakly fair execution terminates without a fault and the final memory is the end of the fold,
    with the products' arrays at what the two grids' write-backs leave. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V14 m (outs m) c b) :=
  run_cond m ρ emb₁ () 𝒱₀ L lv (fun _ _ => rfl) (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun c => by rw [V8_outs]; exact .rfl) (fun _ => .rfl)

/-- The frame: every argument array ends as launched — no host stretch writes one and no pallas_call changes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (V14_main_arg0 m (outs m) c),
      (h c _ (mem_uc main_arg1 (by decide))).trans (V14_main_arg1 m (outs m) c),
      (h c _ (mem_uc main_arg2 (by decide))).trans (V14_main_arg2 m (outs m) c),
      (h c _ (mem_uc main_arg3 (by decide))).trans (V14_main_arg3 m (outs m) c),
      (h c _ (mem_uc main_arg4 (by decide))).trans (V14_main_arg4 m (outs m) c),
      (h c _ (mem_uc main_arg5 (by decide))).trans (V14_main_arg5 m (outs m) c),
      (h c _ (mem_uc main_arg6 (by decide))).trans (V14_main_arg6 m (outs m) c),
      (h c _ (mem_uc main_arg7 (by decide))).trans (V14_main_arg7 m (outs m) c),
      (h c _ (mem_uc main_arg8 (by decide))).trans (V14_main_arg8 m (outs m) c),
      (h c _ (mem_uc main_arg9 (by decide))).trans (V14_main_arg9 m (outs m) c),
      (h c _ (mem_uc main_arg10 (by decide))).trans (V14_main_arg10 m (outs m) c),
      (h c _ (mem_uc main_arg11 (by decide))).trans (V14_main_arg11 m (outs m) c)⟩)
    (run_all m ρ)

/-- The result buffer ends at the last valuation's contents, the arguments as launched. -/
theorem run_result : θ_run defs (onTc (τ := τ) (main (F := F))) ⟨m, fun _ => 0, ρ⟩ (fun r => ∀ c : Dev nD,
      r.2.mem ((c.tc : Thread nD τ).loc main_v154) = V14 m (outs m) c main_v154
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v154 (by decide)),
      (h c _ (mem_uc main_arg0 (by decide))).trans (V14_main_arg0 m (outs m) c),
      (h c _ (mem_uc main_arg1 (by decide))).trans (V14_main_arg1 m (outs m) c),
      (h c _ (mem_uc main_arg2 (by decide))).trans (V14_main_arg2 m (outs m) c),
      (h c _ (mem_uc main_arg3 (by decide))).trans (V14_main_arg3 m (outs m) c),
      (h c _ (mem_uc main_arg4 (by decide))).trans (V14_main_arg4 m (outs m) c),
      (h c _ (mem_uc main_arg5 (by decide))).trans (V14_main_arg5 m (outs m) c),
      (h c _ (mem_uc main_arg6 (by decide))).trans (V14_main_arg6 m (outs m) c),
      (h c _ (mem_uc main_arg7 (by decide))).trans (V14_main_arg7 m (outs m) c),
      (h c _ (mem_uc main_arg8 (by decide))).trans (V14_main_arg8 m (outs m) c),
      (h c _ (mem_uc main_arg9 (by decide))).trans (V14_main_arg9 m (outs m) c),
      (h c _ (mem_uc main_arg10 (by decide))).trans (V14_main_arg10 m (outs m) c),
      (h c _ (mem_uc main_arg11 (by decide))).trans (V14_main_arg11 m (outs m) c)⟩)
    (run_all m ρ)

end Cert.Kernel.Mm

end
-- ==== Proof.KiBody0.lean ====
/-
  The row-blocked matrix product of pallas_call 0, at one grid point: the body loads a block of rows of the left factor
  and the whole right factor, rounds both to bf16, multiplies them into a zero accumulator and stores the product block.
  Proved here, at any float instance: from the three staging buffers held whole the body runs to its end without a
  fault, leaves the factors' buffers unchanged and the product's buffer at the product of the two blocks
  (`out0_2`); and the pipeline's body obligation over proof data whose arrays are the contents `V` the region is
  entered with.
-/
import proofs.«169225_j59287728554039_1_alg».proof.Proof.Gen.KernelIdeal.Launch
import proofs.«169225_j59287728554039_1_alg».proof.Proof.Gen.KernelIdeal.Skeleton
import proofs.«169225_j59287728554039_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The matrix product of pallas_call 0: the body at one grid point, over the region-entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds its row block at every point: a block of rows is fetched afresh at each point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor's staging buffer holds the whole weight matrix at every point: it is fetched once, its block
    index never moves, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-block rectangles the body reads and writes. -/
abbrev rA0 : Rect S1000x1755 := Rect.unit (s := S1000x1755) ![0, 0] S1000x1755.size inb_S1000x1755_S1000x1755_0_0
abbrev rB0 : Rect S1755x128 := Rect.unit (s := S1755x128) ![0, 0] S1755x128.size inb_S1755x128_S1755x128_0_0
abbrev rC0 : Rect S1000x128 := Rect.unit (s := S1000x128) ![0, 0] S1000x128.size inb_S1000x128_S1000x128_0_0

/-- What the body leaves in the product's staging buffer, from the two factor blocks: one whole-block store of the
    product of the row block with the weight matrix. -/
def out0_2 (x0 : Vec F S1000x1755 .f32) (x1 : Vec F S1755x128 .f32) : Vec F S1000x128 .f32 :=
  View.canon [⟨rC0, k0_pay1 (View.ld x0 rA0) (View.ld x1 rB0)⟩]

/-- The one store covers the whole staging buffer. -/
theorem cover0_2 (p0 : Vec F S1000x128 .f32) (y : S1000x128.Idx) :
    ∃ pc ∈ ([⟨rC0, p0⟩] : List (View.Piece (Elt F) S1000x128 .f32)), y ∈ pc.1.set :=
  View.cover_of_tiled [⟨rC0, p0⟩] S1000x128.size (by rfl) y

set_option maxHeartbeats 1000000 in
/-- The body on whole staging buffers — the factors' at `x0`, `x1`, the product's at anything — runs to its end,
    leaves the factors' buffers as they were and the product's at `out0_2 x0 x1`. -/
theorem sound_kernel0 (c : Dev nD) (E : Set ℕ) (i : grid0.Coords) (arg1 : Memref sig .tc .vmem S1000x1755 .f32) (harg1 : arg1.IsWhole)
    (arg2 : Memref sig .tc .vmem S1755x128 .f32) (harg2 : arg2.IsWhole) (arg3 : Memref sig .tc .vmem S1000x128 .f32) (harg3 : arg3.IsWhole)
    (x0 : Vec F S1000x1755 .f32) (x1 : Vec F S1755x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each
    factor's buffer at its block and the product's at `out0_2` of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the factors' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Mm

end
-- ==== Proof.KiBody1.lean ====
/-
  The row-blocked matrix product of pallas_call 1, at one grid point: the body loads a block of rows of the left factor
  and the whole right factor, rounds both to bf16, multiplies them into a zero accumulator and stores the product block.
  Proved here, at any float instance: from the three staging buffers held whole the body runs to its end without a
  fault, leaves the factors' buffers unchanged and the product's buffer at the product of the two blocks
  (`out1_2`); and the pipeline's body obligation over proof data whose arrays are the contents `V` the region is
  entered with.
-/
import proofs.«169225_j59287728554039_1_alg».proof.Proof.Gen.KernelIdeal.Launch
import proofs.«169225_j59287728554039_1_alg».proof.Proof.Gen.KernelIdeal.Skeleton
import proofs.«169225_j59287728554039_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The matrix product of pallas_call 1: the body at one grid point, over the region-entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left factor's staging buffer holds its row block at every point: a block of rows is fetched afresh at each point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right factor's staging buffer holds the whole weight matrix at every point: it is fetched once, its block
    index never moves, and the body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The three whole-block rectangles the body reads and writes. -/
abbrev rA1 : Rect S10000x128 := Rect.unit (s := S10000x128) ![0, 0] S10000x128.size inb_S10000x128_S10000x128_0_0
abbrev rB1 : Rect S128x32 := Rect.unit (s := S128x32) ![0, 0] S128x32.size inb_S128x32_S128x32_0_0
abbrev rC1 : Rect S10000x32 := Rect.unit (s := S10000x32) ![0, 0] S10000x32.size inb_S10000x32_S10000x32_0_0

/-- What the body leaves in the product's staging buffer, from the two factor blocks: one whole-block store of the
    product of the row block with the weight matrix. -/
def out1_2 (x0 : Vec F S10000x128 .f32) (x1 : Vec F S128x32 .f32) : Vec F S10000x32 .f32 :=
  View.canon [⟨rC1, k1_pay1 (View.ld x0 rA1) (View.ld x1 rB1)⟩]

/-- The one store covers the whole staging buffer. -/
theorem cover1_2 (p0 : Vec F S10000x32 .f32) (y : S10000x32.Idx) :
    ∃ pc ∈ ([⟨rC1, p0⟩] : List (View.Piece (Elt F) S10000x32 .f32)), y ∈ pc.1.set :=
  View.cover_of_tiled [⟨rC1, p0⟩] S10000x32.size (by rfl) y

set_option maxHeartbeats 1000000 in
/-- The body on whole staging buffers — the factors' at `x0`, `x1`, the product's at anything — runs to its end,
    leaves the factors' buffers as they were and the product's at `out1_2 x0 x1`. -/
theorem sound_kernel1 (c : Dev nD) (E : Set ℕ) (i : grid1.Coords) (arg1 : Memref sig .tc .vmem S10000x128 .f32) (harg1 : arg1.IsWhole)
    (arg2 : Memref sig .tc .vmem S128x32 .f32) (harg2 : arg2.IsWhole) (arg3 : Memref sig .tc .vmem S10000x32 .f32) (harg3 : arg3.IsWhole)
    (x0 : Vec F S10000x128 .f32) (x1 : Vec F S128x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at point `t` each
    factor's buffer at its block and the product's at `out1_2` of the two blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the factors' buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Mm

end
-- ==== Proof.KiRun.lean ====
/-
  The whole run of the program: host operations, the first row-blocked matrix product (pallas_call 0), host operations,
  the second product (pallas_call 1), host operations. The buffer contents between the program's items are a fold from
  the launch memory: a host stretch applies its operations; a pallas_call replaces its product array by what its
  grid's write-backs leave (`prod0`, `prod1`) and changes nothing else. Proved here, at any float instance: every
  weakly fair execution terminates without a fault, and the final memory holds every unscoped buffer at the end of
  that fold (`run_all`) — in particular each argument as launched (`frame`) and the result buffer at the last
  stretch's term over the second product (`run_result`).
-/
import proofs.«169225_j59287728554039_1_alg».proof.Proof.Gen.KernelIdeal.Regions
import proofs.«169225_j59287728554039_1_alg».proof.Proof.KiBody0
import proofs.«169225_j59287728554039_1_alg».proof.Proof.KiBody1

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents each pallas_call is entered with and leaves -/

/-- What pallas_call 0 finds: the launch memory after the three host stretches before it. -/
abbrev ent0 : (c : Dev nD) → (b : Ref sig .tc) → Buf (Elt F) ((c : Thread nD τ).loc b) := fun c b => V3 m c b

/-- What pallas_call 0 leaves in the first product's array: its write-backs folded over the grid. -/
def prod0 (c : Dev nD) : Buf (Elt F) ((c : Thread nD τ).loc main_v39) := (dat0 (ent0 m) c).arrAt 2 cfg0.N

/-- The contents after pallas_call 0, as the unknowns the fold is written over. -/
def outsA : Outs (F := F) := fun _ r c => Function.update (V3 m c) main_v39 (prod0 m c) r

/-- What pallas_call 1 finds: those contents after the four host stretches between the calls. -/
abbrev ent1 : (c : Dev nD) → (b : Ref sig .tc) → Buf (Elt F) ((c : Thread nD τ).loc b) := fun c b => V8 m (outsA m) c b

/-- What pallas_call 1 leaves in the second product's array. -/
def prod1 (c : Dev nD) : Buf (Elt F) ((c : Thread nD τ).loc main_v95) := (dat1 (ent1 m) c).arrAt 2 cfg1.N

/-- Both calls' results as the fold's unknowns: after item 8 (pallas_call 1) the second product, before it the first. -/
def outs : Outs (F := F) := fun J r c =>
  if J = 9 then Function.update (V8 m (outsA m) c) main_v95 (prod1 m c) r else outsA m J r c

theorem outs_4 (c : Dev nD) : outs m 4 main_v39 c = prod0 m c := by
  unfold outs; rw [if_neg (by decide)]; unfold outsA; exact Function.update_self ..

theorem outs_9 (c : Dev nD) : outs m 9 main_v95 c = prod1 m c := by
  unfold outs; rw [if_pos rfl]; exact Function.update_self ..

theorem V4_outs (c : Dev nD) : V4 m (outs m) c = V4 m (outsA m) c := by
  show Function.update (V3 m c) main_v39 (outs m 4 main_v39 c) = Function.update (V3 m c) main_v39 (outsA m 4 main_v39 c)
  rw [outs_4]; unfold outsA; rw [Function.update_self]

theorem V8_outs (c : Dev nD) : V8 m (outs m) c = V8 m (outsA m) c := by
  show StableHlo.after hostOps1_3 (StableHlo.after hostOps1_2 (StableHlo.after hostOps1_1 (StableHlo.after hostOps1 (V4 m (outs m) c))))
    = StableHlo.after hostOps1_3 (StableHlo.after hostOps1_2 (StableHlo.after hostOps1_1 (StableHlo.after hostOps1 (V4 m (outsA m) c))))
  rw [V4_outs]

/-- The first product's array after pallas_call 0 is what its write-backs leave. -/
theorem V4_prod (c : Dev nD) : V4 m (outs m) c main_v39 = prod0 m c := by
  show Function.update (V3 m c) main_v39 (outs m 4 main_v39 c) main_v39 = _
  rw [Function.update_self, outs_4]

/-- The second product's array after pallas_call 1 is what its write-backs leave. -/
theorem V9_prod (c : Dev nD) : V9 m (outs m) c main_v95 = prod1 m c := by
  show Function.update (V8 m (outs m) c) main_v95 (outs m 9 main_v95 c) main_v95 = _
  rw [Function.update_self, outs_9]

/-- After pallas_call 0 each of its arrays holds what the pipeline leaves: a factor as entered, the product at `prod0`. -/
theorem hF0 (c : Dev nD) (w : Fin cfg0.W) : (dat0 (ent0 m) c).arrAt w cfg0.N = V4 m (outs m) c (Pipeline.arrRef spec0 w) := by
  fin_cases w
  · exact ((dat0 (ent0 m) c).arrAt_in 0 rfl _).trans ((A_eq0 (ent0 m) c 0).trans (V4_of m (outs m) c (Pipeline.arrRef spec0 0) (by decide)).symm)
  · exact ((dat0 (ent0 m) c).arrAt_in 1 rfl _).trans ((A_eq0 (ent0 m) c 1).trans (V4_of m (outs m) c (Pipeline.arrRef spec0 1) (by decide)).symm)
  · exact (V4_prod m c).symm
/-- Every other buffer is as entered. -/
theorem hrest0 (c : Dev nD) : ∀ b, b ∉ Finset.univ.image (Pipeline.arrRef spec0) → V4 m (outs m) c b = ent0 m c b :=
  fun b hb => V4_of m (outs m) c b fun h => hb (by
    rw [List.mem_singleton] at h; subst h; exact Finset.mem_image.mpr ⟨2, Finset.mem_univ _, rfl⟩)

theorem hF1 (c : Dev nD) (w : Fin cfg1.W) : (dat1 (ent1 m) c).arrAt w cfg1.N = V9 m (outs m) c (Pipeline.arrRef spec1 w) := by
  fin_cases w
  · exact ((dat1 (ent1 m) c).arrAt_in 0 rfl _).trans ((A_eq1 (ent1 m) c 0).trans (((V9_of m (outs m) c (Pipeline.arrRef spec1 0) (by decide)).trans (congrFun (V8_outs m c) _)).symm))
  · exact ((dat1 (ent1 m) c).arrAt_in 1 rfl _).trans ((A_eq1 (ent1 m) c 1).trans (((V9_of m (outs m) c (Pipeline.arrRef spec1 1) (by decide)).trans (congrFun (V8_outs m c) _)).symm))
  · exact (V9_prod m c).symm
theorem hrest1 (c : Dev nD) : ∀ b, b ∉ Finset.univ.image (Pipeline.arrRef spec1) → V9 m (outs m) c b = ent1 m c b :=
  fun b hb => (V9_of m (outs m) c b fun h => hb (by
    rw [List.mem_singleton] at h; subst h; exact Finset.mem_image.mpr ⟨2, Finset.mem_univ _, rfl⟩)).trans (congrFun (V8_outs m c) _)

/-! ## The proof data family and the thread state -/

/-- Each pipeline's proof data at its entry contents. -/
def pdats : (p : Fin 2) → (c : Dev nD) → Dat τ (Elt F) Unit ℕ (UR sig nD τ) ℕ (cfgs p) c
  | ⟨0, _⟩ => fun c => dat0 (ent0 m) c
  | ⟨1, _⟩ => fun c => dat1 (ent1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the library's entry and exit lemmas are stated over the pinned configuration; unifying them with the printed one
-- needs plain definitions unfolded in a metavariable's type
set_option backward.isDefEq.respectTransparency.types false in
/-- Pallas_call 0 over the thread state "every unscoped buffer at the contents before it, the generator register at
    some state, nothing owed": its three arrays are split out of the unscoped buffers on entry and put back on exit with the
    product's array at what the write-backs leave; the generator register goes into the pipeline's invariant and comes
    back; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (ent0 m c) (fun b => (V4 m (outs m) c) b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]
    · iexact HY
    unfold Pipeline.Dat.owesAt Pipeline.owesWithin
    icases HO with ⟨%W, -, HO⟩; iexists W; iexact HO

-- the library's entry and exit lemmas are stated over the pinned configuration; unifying them with the printed one
-- needs plain definitions unfolded in a metavariable's type
set_option backward.isDefEq.respectTransparency.types false in
/-- Pallas_call 1 over the thread state "every unscoped buffer at the contents before it, the generator register at
    some state, nothing owed": its three arrays are split out of the unscoped buffers on entry and put back on exit with the
    product's array at what the write-backs leave; the generator register goes into the pipeline's invariant and comes
    back; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (V8 m (outsA m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (ent1 m c) (fun b => (V9 m (outs m) c) b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]
    · iexact HY
    unfold Pipeline.Dat.owesAt Pipeline.owesWithin
    icases HO with ⟨%W, -, HO⟩; iexists W; iexact HO

/-! ## The run -/

-- the launch theorem's implicit arguments are found by unifying its conclusion with this one, which takes unfolding
-- plain definitions in a metavariable's type
set_option backward.isDefEq.respectTransparency.types false in
/-- The run, given the two calls' records over this fold's thread states: every weakly fair execution of the program
    from memory `m` with zero counters terminates, and the final memory holds every unscoped buffer at the end of the
    fold. (The conditional frame of the host side, with the whole last valuation read back instead of the arguments only.) -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) Gen.adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) Gen.adm pdats ι defs₀ 𝒱₀ L lv 1)
    (hpre1 : ∀ c : Dev nD, iprop(StableHlo.held (c : Thread nD τ) (Pipeline.ucRefs τ sig) (V8 m outs c) ∗ E 1 c) ⊢ R1.pre c)
    (hpost1 : ∀ c : Dev nD, R1.post c ⊢ iprop(StableHlo.held (c : Thread nD τ) (Pipeline.ucRefs τ sig) (V9 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V14 m outs c b) := by
  refine Pipeline.θ_run_regions_kit_dev (pcfgs (F := F)) Gen.adm pdats ι cellOf_inj EP defs₀ 𝒱₀ L lv m ρ main
    (Gen.segs m outs 𝒱₀ L lv E ι pdats R0 R1)
    (fun c Q => by
      rewrite [main_chain c, Seg.run_eq_chain,
        show (Gen.segs m outs 𝒱₀ L lv E ι pdats R0 R1 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [Gen.segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V14 m outs c))
    (hch := fun c => ⟨.rfl, .rfl, .rfl, hpre0 c, hpost0 c, .rfl, .rfl, .rfl, hpre1 c, hpost1 c, .rfl, .rfl, .rfl, .rfl, sep_mono .rfl (hE2 c)⟩)
    (hinit := ?_) (QY := fun c s => ∀ b ∈ Pipeline.ucRefs τ sig, s.mem ((c : Thread nD τ).1, b) = V14 m outs c b)
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V14 m outs c) s') $$ [Hh HSI]
    · isplitl [Hh] <;> iassumption
    icases Hr with ⟨%h, HSI⟩
    imodintro
    isplitr
    · ipureintro
      exact h
    · iexact HSI

/-- The run: every weakly fair execution terminates without a fault and the final memory is the end of the fold,
    with the products' arrays at what the two grids' write-backs leave. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V14 m (outs m) c b) :=
  run_cond m ρ emb₁ () 𝒱₀ L lv (fun _ _ => rfl) (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun c => by rw [V8_outs]; exact .rfl) (fun _ => .rfl)

/-- The frame: every argument array ends as launched — no host stretch writes one and no pallas_call changes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (V14_main_arg0 m (outs m) c),
      (h c _ (mem_uc main_arg1 (by decide))).trans (V14_main_arg1 m (outs m) c),
      (h c _ (mem_uc main_arg2 (by decide))).trans (V14_main_arg2 m (outs m) c),
      (h c _ (mem_uc main_arg3 (by decide))).trans (V14_main_arg3 m (outs m) c),
      (h c _ (mem_uc main_arg4 (by decide))).trans (V14_main_arg4 m (outs m) c),
      (h c _ (mem_uc main_arg5 (by decide))).trans (V14_main_arg5 m (outs m) c),
      (h c _ (mem_uc main_arg6 (by decide))).trans (V14_main_arg6 m (outs m) c),
      (h c _ (mem_uc main_arg7 (by decide))).trans (V14_main_arg7 m (outs m) c),
      (h c _ (mem_uc main_arg8 (by decide))).trans (V14_main_arg8 m (outs m) c),
      (h c _ (mem_uc main_arg9 (by decide))).trans (V14_main_arg9 m (outs m) c),
      (h c _ (mem_uc main_arg10 (by decide))).trans (V14_main_arg10 m (outs m) c),
      (h c _ (mem_uc main_arg11 (by decide))).trans (V14_main_arg11 m (outs m) c)⟩)
    (run_all m ρ)

/-- The result buffer ends at the last valuation's contents, the arguments as launched. -/
theorem run_result : θ_run defs (onTc (τ := τ) (main (F := F))) ⟨m, fun _ => 0, ρ⟩ (fun r => ∀ c : Dev nD,
      r.2.mem ((c.tc : Thread nD τ).loc main_v154) = V14 m (outs m) c main_v154
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v154 (by decide)),
      (h c _ (mem_uc main_arg0 (by decide))).trans (V14_main_arg0 m (outs m) c),
      (h c _ (mem_uc main_arg1 (by decide))).trans (V14_main_arg1 m (outs m) c),
      (h c _ (mem_uc main_arg2 (by decide))).trans (V14_main_arg2 m (outs m) c),
      (h c _ (mem_uc main_arg3 (by decide))).trans (V14_main_arg3 m (outs m) c),
      (h c _ (mem_uc main_arg4 (by decide))).trans (V14_main_arg4 m (outs m) c),
      (h c _ (mem_uc main_arg5 (by decide))).trans (V14_main_arg5 m (outs m) c),
      (h c _ (mem_uc main_arg6 (by decide))).trans (V14_main_arg6 m (outs m) c),
      (h c _ (mem_uc main_arg7 (by decide))).trans (V14_main_arg7 m (outs m) c),
      (h c _ (mem_uc main_arg8 (by decide))).trans (V14_main_arg8 m (outs m) c),
      (h c _ (mem_uc main_arg9 (by decide))).trans (V14_main_arg9 m (outs m) c),
      (h c _ (mem_uc main_arg10 (by decide))).trans (V14_main_arg10 m (outs m) c),
      (h c _ (mem_uc main_arg11 (by decide))).trans (V14_main_arg11 m (outs m) c)⟩)
    (run_all m ρ)

end Cert.KernelIdeal.Mm

end
-- ==== Proof.KiValue0.lean ====
/-
  The value of pallas_call 0 on the extended reals: the array its grid leaves is the matrix product of the two arrays
  it is entered with. At one grid point the body's product block is, entry by entry, the sum over the contracted axis
  of row-block entry times weight entry (rounding to bf16 is the identity on the extended reals, and the accumulator
  starts at zero); block `t` of the product array is rows `1000·t … 1000·t + 999`, all columns; the blocks of the
  100 grid points tile the array.
-/
import proofs.«169225_j59287728554039_1_alg».proof.Proof.KiBody0
import Idealize.ShloMosaic.Lib.Pipeline.Value
import Idealize.ShloMosaic.Lib.ValueIdx
import Idealize.ShloMosaic.PureOps.Ideal.Laws

set_option maxRecDepth 16384

noncomputable section

namespace Cert.KernelIdeal.MmValue

open Cert.KernelIdeal Cert.KernelIdeal.Gen Cert.KernelIdeal.Mm Idealize.ShloMosaic Idealize.ShloMosaic.TcCoe Idealize.SL.Sem
open Idealize.ShloMosaic.Pipeline (Dat)

/-! ## The product, index by index -/

/-- The left and right operand indices of product entry `i` at contraction index `k`: (row of `i`, `k`) and (`k`, column of `i`). -/
abbrev lix0 (i : S100000x128.Idx) (k : Fin 1755) : S100000x1755.Idx := fun a => match a with
  | ⟨0, _⟩ => ⟨(i 0).val, (i 0).isLt⟩
  | ⟨1, _⟩ => ⟨k.val, k.isLt⟩
abbrev rix0 (i : S100000x128.Idx) (k : Fin 1755) : S1755x128.Idx := fun a => match a with
  | ⟨0, _⟩ => ⟨k.val, k.isLt⟩
  | ⟨1, _⟩ => ⟨(i 1).val, (i 1).isLt⟩

/-- The matrix product of `a` and `b` on the extended reals. -/
def G0 (a : S100000x1755.Idx → Elt Ideal .f32) (b : S1755x128.Idx → Elt Ideal .f32) : S100000x128.Idx → Elt Ideal .f32 :=
  fun i => ∑ k : Fin 1755, a (lix0 i k) * b (rix0 i k)

/-! ## One block: the body's payload at an entry -/

/-- The same two indices inside one row block. -/
abbrev blix0 (j : S1000x128.Idx) (k : Fin 1755) : S1000x1755.Idx := fun a => match a with
  | ⟨0, _⟩ => ⟨(j 0).val, (j 0).isLt⟩
  | ⟨1, _⟩ => ⟨k.val, k.isLt⟩
abbrev brix0 (j : S1000x128.Idx) (k : Fin 1755) : S1755x128.Idx := fun a => match a with
  | ⟨0, _⟩ => ⟨k.val, k.isLt⟩
  | ⟨1, _⟩ => ⟨(j 1).val, (j 1).isLt⟩

theorem lhs0_0 (j : S1000x128.Idx) (q : dot_S1000x1755_S1755x128_S1000x128_1_0_0_1_n_n.contr.Idx) :
    (dot_S1000x1755_S1755x128_S1000x128_1_0_0_1_n_n.lhsIdx j q 0).val = (j 0).val := by
  unfold DotDims.lhsIdx
  rw [dif_neg (show ¬(0 : Fin S1000x1755.rank) ∈ dot_S1000x1755_S1755x128_S1000x128_1_0_0_1_n_n.lhsBatch by decide), dif_pos (show (0 : Fin S1000x1755.rank) ∈ dot_S1000x1755_S1755x128_S1000x128_1_0_0_1_n_n.lhsNonContracting by decide)]
  rfl
theorem lhs0_1 (j : S1000x128.Idx) (q : dot_S1000x1755_S1755x128_S1000x128_1_0_0_1_n_n.contr.Idx) :
    (dot_S1000x1755_S1755x128_S1000x128_1_0_0_1_n_n.lhsIdx j q 1).val = (q ⟨0, by decide⟩).val :=
  dot_S1000x1755_S1755x128_S1000x128_1_0_0_1_n_n.lhsIdx_val_of_single rfl j q
theorem rhs0_0 (j : S1000x128.Idx) (q : dot_S1000x1755_S1755x128_S1000x128_1_0_0_1_n_n.contr.Idx) :
    (dot_S1000x1755_S1755x128_S1000x128_1_0_0_1_n_n.rhsIdx j q 0).val = (q ⟨0, by decide⟩).val :=
  dot_S1000x1755_S1755x128_S1000x128_1_0_0_1_n_n.rhsIdx_val_of_single rfl j q
theorem rhs0_1 (j : S1000x128.Idx) (q : dot_S1000x1755_S1755x128_S1000x128_1_0_0_1_n_n.contr.Idx) :
    (dot_S1000x1755_S1755x128_S1000x128_1_0_0_1_n_n.rhsIdx j q 1).val = (j 1).val := by
  unfold DotDims.rhsIdx
  rw [dif_neg (show ¬(1 : Fin S1755x128.rank) ∈ dot_S1000x1755_S1755x128_S1000x128_1_0_0_1_n_n.rhsBatch by decide), dif_pos (show (1 : Fin S1755x128.rank) ∈ dot_S1000x1755_S1755x128_S1000x128_1_0_0_1_n_n.rhsNonContracting by decide)]
  rfl

/-- The body's product block at entry `j`: the sum over `k` of the row block at (row of `j`, `k`) times the weights at
    (`k`, column of `j`). -/
theorem pay0_apply (x0 : Vec Ideal S1000x1755 .f32) (x1 : Vec Ideal S1755x128 .f32) (j : S1000x128.Idx) :
    k0_pay1 (F := Ideal) x0 x1 j = ∑ k : Fin 1755, x0 (blix0 j k) * x1 (brix0 j k) := by
  unfold k0_pay1
  rw [shapeCast_self]
  refine (Ideal.matmul_constant_zero_apply dot_S1000x1755_S1755x128_S1000x128_1_0_0_1_n_n none _ _ j).trans ?_
  rw [← Equiv.sum_comp (ValueIdx.contrEquiv1 dot_S1000x1755_S1755x128_S1000x128_1_0_0_1_n_n 1755 rfl rfl).symm]
  refine Finset.sum_congr rfl fun k _ => ?_
  have hk := ValueIdx.contrEquiv1_symm_val dot_S1000x1755_S1755x128_S1000x128_1_0_0_1_n_n 1755 rfl rfl k
  have el : dot_S1000x1755_S1755x128_S1000x128_1_0_0_1_n_n.lhsIdx j ((ValueIdx.contrEquiv1 dot_S1000x1755_S1755x128_S1000x128_1_0_0_1_n_n 1755 rfl rfl).symm k) = blix0 j k := funext fun a => Fin.ext (by
    match a with
    | ⟨0, _⟩ => exact lhs0_0 _ _
    | ⟨1, _⟩ => exact (lhs0_1 _ _).trans hk)
  have er : dot_S1000x1755_S1755x128_S1000x128_1_0_0_1_n_n.rhsIdx j ((ValueIdx.contrEquiv1 dot_S1000x1755_S1755x128_S1000x128_1_0_0_1_n_n 1755 rfl rfl).symm k) = brix0 j k := funext fun a => Fin.ext (by
    match a with
    | ⟨0, _⟩ => exact (rhs0_0 _ _).trans hk
    | ⟨1, _⟩ => exact rhs0_1 _ _)
  rw [el, er]
  rfl

/-! ## From blocks to the array -/

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the left factor's and the product's block is the point's number on the row
    axis and 0 on the column axis; the weight matrix's block is always (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the matrix product of the two arrays the call is entered with. -/
theorem flushed0_eq (c : Dev nD) (t : Fin cfg0.N) :
    (dat0 V c).flushed 2 t = ((cfg0.win 2).blk t).view.read (Elt Ideal) (G0 (V c main_v34) (V c main_arg6)) := by
  show (cfg0.win 2).cut (grid0.coords t) ((dat0 V c).after 2 t) = _
  rw [after0_2]
  unfold out0_2
  rw [View.canon_unit_zero hz0]
  simp only [View.ld_unit_zero (S := S1000x1755) hz0, View.ld_unit_zero (S := S1755x128) hz0]
  obtain ⟨e0, e1, e2, e3, e4, e5⟩ := idx_facts0 t
  funext j
  show k0_pay1 (F := Ideal) (iblk0 V c 0 t) (iblk0 V c 1 t) j = G0 (V c main_v34) (V c main_arg6) (((cfg0.win 2).blk t).view.emb j)
  refine (pay0_apply _ _ j).trans ?_
  unfold G0
  refine Finset.sum_congr rfl fun k _ => ?_
  have hj0 : (j 0).val < 1000 := (j 0).isLt
  have hj1 : (j 1).val < 128 := (j 1).isLt
  have hk : k.val < 1755 := k.isLt
  have h0 : iblk0 V c 0 t (blix0 j k) = V c main_v34 (lix0 (((cfg0.win 2).blk t).view.emb j) k) := by
    show V c main_v34 (((cfg0.win 0).blk t).view.emb (blix0 j k)) = _
    refine congrArg _ (funext fun a => Fin.ext ?_)
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 1755 + 1 * k.val = k.val; omega
  have h1 : iblk0 V c 1 t (brix0 j k) = V c main_arg6 (rix0 (((cfg0.win 2).blk t).view.emb j) k) := by
    show V c main_arg6 (((cfg0.win 1).blk t).view.emb (brix0 j k)) = _
    refine congrArg _ (funext fun a => Fin.ext ?_)
    match a with
    | ⟨0, _⟩ => show win0_1.index t (0 : Fin 2) * 1755 + 1 * k.val = k.val; omega
    | ⟨1, _⟩ => show win0_1.index t (1 : Fin 2) * 128 + 1 * (j 1).val = win0_2.index t (1 : Fin 2) * 128 + 1 * (j 1).val; omega
  rw [h0, h1]

/-- An index of the product array is in point `t`'s block iff each coordinate is in the block's range on its axis. -/
theorem mem_blk0 (t : Fin cfg0.N) (i : S100000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v39).slice (win0_2.rect t)).set ↔ _
  rw [View.set_slice_whole, Rect.mem_set_unit]
  exact Iff.rfl

/-- Every entry of the product array lies in the block of the point numbered by its row divided by 1000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 100 := N_0
  let t : Fin cfg0.N := ⟨(i 0).val / 1000, by show (i 0).val / 1000 < grid0.N; rw [hN]; omega⟩
  obtain ⟨e0, e1, e2, e3, e4, e5⟩ := idx_facts0 t
  have e4' : win0_2.index t (0 : Fin 2) = (i 0).val / 1000 := e4
  refine ⟨t, flush0_2 t, ?_⟩
  rw [mem_blk0]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 128 ≤ (i 1).val ∧ (i 1).val < win0_2.index t (1 : Fin 2) * 128 + 128; omega

/-- The product array after the call is the matrix product of the two arrays the call is entered with. -/
theorem final0 (c : Dev nD) : (dat0 V c).arrAt 2 cfg0.N = G0 (V c main_v34) (V c main_arg6) :=
  (dat0 V c).arrAt_eq_of_cover 2 (G0 (V c main_v34) (V c main_arg6)) (fun t _ => flushed0_eq V c t) (cover0)

end Cert.KernelIdeal.MmValue

end
-- ==== Proof.KiValue1.lean ====
/-
  The value of pallas_call 1 on the extended reals: the array its grid leaves is the matrix product of the two arrays
  it is entered with. At one grid point the body's product block is, entry by entry, the sum over the contracted axis
  of row-block entry times weight entry (rounding to bf16 is the identity on the extended reals, and the accumulator
  starts at zero); block `t` of the product array is rows `10000·t … 10000·t + 9999`, all columns; the blocks of the
  10 grid points tile the array.
-/
import proofs.«169225_j59287728554039_1_alg».proof.Proof.KiBody1
import Idealize.ShloMosaic.Lib.Pipeline.Value
import Idealize.ShloMosaic.Lib.ValueIdx
import Idealize.ShloMosaic.PureOps.Ideal.Laws

set_option maxRecDepth 16384

noncomputable section

namespace Cert.KernelIdeal.MmValue

open Cert.KernelIdeal Cert.KernelIdeal.Gen Cert.KernelIdeal.Mm Idealize.ShloMosaic Idealize.ShloMosaic.TcCoe Idealize.SL.Sem
open Idealize.ShloMosaic.Pipeline (Dat)

/-! ## The product, index by index -/

/-- The left and right operand indices of product entry `i` at contraction index `k`: (row of `i`, `k`) and (`k`, column of `i`). -/
abbrev lix1 (i : S100000x32.Idx) (k : Fin 128) : S100000x128.Idx := fun a => match a with
  | ⟨0, _⟩ => ⟨(i 0).val, (i 0).isLt⟩
  | ⟨1, _⟩ => ⟨k.val, k.isLt⟩
abbrev rix1 (i : S100000x32.Idx) (k : Fin 128) : S128x32.Idx := fun a => match a with
  | ⟨0, _⟩ => ⟨k.val, k.isLt⟩
  | ⟨1, _⟩ => ⟨(i 1).val, (i 1).isLt⟩

/-- The matrix product of `a` and `b` on the extended reals. -/
def G1 (a : S100000x128.Idx → Elt Ideal .f32) (b : S128x32.Idx → Elt Ideal .f32) : S100000x32.Idx → Elt Ideal .f32 :=
  fun i => ∑ k : Fin 128, a (lix1 i k) * b (rix1 i k)

/-! ## One block: the body's payload at an entry -/

/-- The same two indices inside one row block. -/
abbrev blix1 (j : S10000x32.Idx) (k : Fin 128) : S10000x128.Idx := fun a => match a with
  | ⟨0, _⟩ => ⟨(j 0).val, (j 0).isLt⟩
  | ⟨1, _⟩ => ⟨k.val, k.isLt⟩
abbrev brix1 (j : S10000x32.Idx) (k : Fin 128) : S128x32.Idx := fun a => match a with
  | ⟨0, _⟩ => ⟨k.val, k.isLt⟩
  | ⟨1, _⟩ => ⟨(j 1).val, (j 1).isLt⟩

theorem lhs1_0 (j : S10000x32.Idx) (q : dot_S10000x128_S128x32_S10000x32_1_0_0_1_n_n.contr.Idx) :
    (dot_S10000x128_S128x32_S10000x32_1_0_0_1_n_n.lhsIdx j q 0).val = (j 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem lhs1_1 (j : S10000x32.Idx) (q : dot_S10000x128_S128x32_S10000x32_1_0_0_1_n_n.contr.Idx) :
    (dot_S10000x128_S128x32_S10000x32_1_0_0_1_n_n.lhsIdx j q 1).val = (q ⟨0, by decide⟩).val :=
  dot_S10000x128_S128x32_S10000x32_1_0_0_1_n_n.lhsIdx_val_of_single rfl j q
theorem rhs1_0 (j : S10000x32.Idx) (q : dot_S10000x128_S128x32_S10000x32_1_0_0_1_n_n.contr.Idx) :
    (dot_S10000x128_S128x32_S10000x32_1_0_0_1_n_n.rhsIdx j q 0).val = (q ⟨0, by decide⟩).val :=
  dot_S10000x128_S128x32_S10000x32_1_0_0_1_n_n.rhsIdx_val_of_single rfl j q
theorem rhs1_1 (j : S10000x32.Idx) (q : dot_S10000x128_S128x32_S10000x32_1_0_0_1_n_n.contr.Idx) :
    (dot_S10000x128_S128x32_S10000x32_1_0_0_1_n_n.rhsIdx j q 1).val = (j 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- The body's product block at entry `j`: the sum over `k` of the row block at (row of `j`, `k`) times the weights at
    (`k`, column of `j`). -/
theorem pay1_apply (x0 : Vec Ideal S10000x128 .f32) (x1 : Vec Ideal S128x32 .f32) (j : S10000x32.Idx) :
    k1_pay1 (F := Ideal) x0 x1 j = ∑ k : Fin 128, x0 (blix1 j k) * x1 (brix1 j k) := by
  unfold k1_pay1
  rw [shapeCast_self]
  refine (Ideal.matmul_constant_zero_apply dot_S10000x128_S128x32_S10000x32_1_0_0_1_n_n none _ _ j).trans ?_
  rw [← Equiv.sum_comp (ValueIdx.contrEquiv1 dot_S10000x128_S128x32_S10000x32_1_0_0_1_n_n 128 rfl rfl).symm]
  refine Finset.sum_congr rfl fun k _ => ?_
  have hk := ValueIdx.contrEquiv1_symm_val dot_S10000x128_S128x32_S10000x32_1_0_0_1_n_n 128 rfl rfl k
  have el : dot_S10000x128_S128x32_S10000x32_1_0_0_1_n_n.lhsIdx j ((ValueIdx.contrEquiv1 dot_S10000x128_S128x32_S10000x32_1_0_0_1_n_n 128 rfl rfl).symm k) = blix1 j k := funext fun a => Fin.ext (by
    match a with
    | ⟨0, _⟩ => exact lhs1_0 _ _
    | ⟨1, _⟩ => exact (lhs1_1 _ _).trans hk)
  have er : dot_S10000x128_S128x32_S10000x32_1_0_0_1_n_n.rhsIdx j ((ValueIdx.contrEquiv1 dot_S10000x128_S128x32_S10000x32_1_0_0_1_n_n 128 rfl rfl).symm k) = brix1 j k := funext fun a => Fin.ext (by
    match a with
    | ⟨0, _⟩ => exact (rhs1_0 _ _).trans hk
    | ⟨1, _⟩ => exact rhs1_1 _ _)
  rw [el, er]
  rfl

/-! ## From blocks to the array -/

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the left factor's and the product's block is the point's number on the row
    axis and 0 on the column axis; the weight matrix's block is always (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the matrix product of the two arrays the call is entered with. -/
theorem flushed1_eq (c : Dev nD) (t : Fin cfg1.N) :
    (dat1 V c).flushed 2 t = ((cfg1.win 2).blk t).view.read (Elt Ideal) (G1 (V c main_v94) (V c main_arg8)) := by
  show (cfg1.win 2).cut (grid1.coords t) ((dat1 V c).after 2 t) = _
  rw [after1_2]
  unfold out1_2
  rw [View.canon_unit_zero hz1]
  simp only [View.ld_unit_zero (S := S10000x128) hz1, View.ld_unit_zero (S := S128x32) hz1]
  obtain ⟨e0, e1, e2, e3, e4, e5⟩ := idx_facts1 t
  funext j
  show k1_pay1 (F := Ideal) (iblk1 V c 0 t) (iblk1 V c 1 t) j = G1 (V c main_v94) (V c main_arg8) (((cfg1.win 2).blk t).view.emb j)
  refine (pay1_apply _ _ j).trans ?_
  unfold G1
  refine Finset.sum_congr rfl fun k _ => ?_
  have hj0 : (j 0).val < 10000 := (j 0).isLt
  have hj1 : (j 1).val < 32 := (j 1).isLt
  have hk : k.val < 128 := k.isLt
  have h0 : iblk1 V c 0 t (blix1 j k) = V c main_v94 (lix1 (((cfg1.win 2).blk t).view.emb j) k) := by
    show V c main_v94 (((cfg1.win 0).blk t).view.emb (blix1 j k)) = _
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  have h1 : iblk1 V c 1 t (brix1 j k) = V c main_arg8 (rix1 (((cfg1.win 2).blk t).view.emb j) k) := by
    show V c main_arg8 (((cfg1.win 1).blk t).view.emb (brix1 j k)) = _
    refine congrArg _ (funext fun a => Fin.ext ?_)
    match a with
    | ⟨0, _⟩ => show win1_1.index t (0 : Fin 2) * 128 + 1 * k.val = k.val; omega
    | ⟨1, _⟩ => show win1_1.index t (1 : Fin 2) * 32 + 1 * (j 1).val = win1_2.index t (1 : Fin 2) * 32 + 1 * (j 1).val; omega
  rw [h0, h1]

/-- An index of the product array is in point `t`'s block iff each coordinate is in the block's range on its axis. -/
theorem mem_blk1 (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v95).slice (win1_2.rect t)).set ↔ _
  rw [View.set_slice_whole, Rect.mem_set_unit]
  exact Iff.rfl

/-- Every entry of the product array lies in the block of the point numbered by its row divided by 10000. -/
theorem cover1 (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : grid1.N = 10 := N_1
  let t : Fin cfg1.N := ⟨(i 0).val / 10000, by show (i 0).val / 10000 < grid1.N; rw [hN]; omega⟩
  obtain ⟨e0, e1, e2, e3, e4, e5⟩ := idx_facts1 t
  have e4' : win1_2.index t (0 : Fin 2) = (i 0).val / 10000 := e4
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 32 ≤ (i 1).val ∧ (i 1).val < win1_2.index t (1 : Fin 2) * 32 + 32; omega

/-- The product array after the call is the matrix product of the two arrays the call is entered with. -/
theorem final1 (c : Dev nD) : (dat1 V c).arrAt 2 cfg1.N = G1 (V c main_v94) (V c main_arg8) :=
  (dat1 V c).arrAt_eq_of_cover 2 (G1 (V c main_v94) (V c main_arg8)) (fun t _ => flushed1_eq V c t) (cover1)

end Cert.KernelIdeal.MmValue

end
-- ==== Proof.HostChains.lean ====
/-
  The host computations around the two matrix products.

  The kernel program and the reference program apply the same tensor operations, in the same order, to buffers of
  the same names, everywhere except at the two matrix products. This module states that fact one stretch at a time:
  the operations of a stretch, run from any memory, leave in the stretch's last buffer the value the reference's
  stage function for that buffer gives, as a function of the program's arguments and of the matrix product the
  stretch starts from. The matrix products themselves are never opened here: they enter as hypotheses on the
  starting memory.
-/
import proofs.«169225_j59287728554039_1_alg».proof.Proof.Gen.KernelIdeal.Launch
import proofs.«169225_j59287728554039_1_alg».proof.Proof.Gen.ReferenceIdeal.Read

noncomputable section

namespace Cert.KernelIdeal.Chains

open Cert.KernelIdeal Cert.KernelIdeal.Gen Idealize.ShloMosaic Idealize.ShloMosaic.TcCoe Idealize.ShloMosaic.StableHlo

variable {F : FTy → Type} [FloatOps F]

/-- What a memory holds at a buffer after one operation: the operation's value at the buffer it writes, what was
    there before at any other buffer. Applied until no read through an operation is left. -/
macro "reads_through" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

/-! ## Before the first matrix product -/

set_option maxRecDepth 8192 in
set_option maxHeartbeats 4000000 in
/-- The operations before the first matrix product, run from any memory, leave in the product's left operand
    the reference's feature matrix: the three embedding look-ups (rows of the three tables chosen by the index
    columns of the input, a negative index counted from the end) and the numeric columns, joined side by side. -/
theorem head_v34 (W : Valuation τ sig (Elt F)) :
    StableHlo.after hostOps0_2 (StableHlo.after hostOps0_1 (StableHlo.after hostOps0 W)) main_v34
      = Cert.ReferenceIdeal.Read.val_main_v34 (F := F) (W main_arg0) (W main_arg3) (W main_arg4) (W main_arg5) := by
  after_results_simp
  rfl

set_option maxRecDepth 8192 in
set_option maxHeartbeats 4000000 in
/-- The same operations leave the first row of the edge list (one end of every edge) where the reference has it. -/
theorem head_v36 (W : Valuation τ sig (Elt F)) :
    StableHlo.after hostOps0_2 (StableHlo.after hostOps0_1 (StableHlo.after hostOps0 W)) main_v36
      = Cert.ReferenceIdeal.Read.val_main_v36 (F := F) (W main_arg1) := by
  after_results_simp
  rfl

set_option maxRecDepth 8192 in
set_option maxHeartbeats 4000000 in
/-- The same operations leave the second row of the edge list (the other end of every edge) where the reference
    has it. -/
theorem head_v38 (W : Valuation τ sig (Elt F)) :
    StableHlo.after hostOps0_2 (StableHlo.after hostOps0_1 (StableHlo.after hostOps0 W)) main_v38
      = Cert.ReferenceIdeal.Read.val_main_v38 (F := F) (W main_arg1) := by
  after_results_simp
  rfl

/-! ## Between the two matrix products -/

open Cert.ReferenceIdeal.Read in
set_option maxRecDepth 8192 in
set_option maxHeartbeats 4000000 in
/-- The first graph convolution after its matrix product. From any memory that holds the product `X W₁`, the two
    rows of the edge list and the edge weights, the operations between the two matrix products leave
    `relu (Σ_{edges j → i, self-loops included} d_j^{-1/2} w_{ji} d_i^{-1/2} (X W₁)_j + b₁)`, with `d` the weighted
    in-degree (its inverse square root taken as zero where the degree is not positive): the reference's stage for
    the same buffer, the left operand of the second matrix product. -/
theorem mid_v94 (W : Valuation τ sig (Elt F))
    (x0 : (⟨S100000x1005, .f32⟩ : BufTy).Contents (Elt F)) (x1 : (⟨S2x1600000, .i32⟩ : BufTy).Contents (Elt F)) (x2 : (⟨S1600000, .f32⟩ : BufTy).Contents (Elt F)) (x3 : (⟨S3x250, .f32⟩ : BufTy).Contents (Elt F))
    (x4 : (⟨S11x250, .f32⟩ : BufTy).Contents (Elt F)) (x5 : (⟨S256x85, .f32⟩ : BufTy).Contents (Elt F)) (x6 : (⟨S1755x128, .f32⟩ : BufTy).Contents (Elt F)) (x7 : (⟨S128, .f32⟩ : BufTy).Contents (Elt F))
    (h39 : W main_v39 = val_main_v39 (F := F) x0 x3 x4 x5 x6)
    (h36 : W main_v36 = val_main_v36 (F := F) x1)
    (h38 : W main_v38 = val_main_v38 (F := F) x1)
    (h2 : W main_arg2 = x2) (h7 : W main_arg7 = x7) :
    StableHlo.after hostOps1_3 (StableHlo.after hostOps1_2 (StableHlo.after hostOps1_1 (StableHlo.after hostOps1 W))) main_v94
      = val_main_v94 (F := F) x0 x1 x2 x3 x4 x5 x6 x7 := by
  after_results_simp
  reads_through
  rw [h39, h36, h38, h2, h7]
  rfl

/-! ## After the second matrix product -/

open Cert.ReferenceIdeal.Read in
set_option maxRecDepth 8192 in
set_option maxHeartbeats 4000000 in
/-- The second graph convolution after its matrix product, and the output layer. From any memory that holds the
    product `H W₂`, the two rows of the edge list and the edge weights, the operations after the second matrix
    product leave `relu (Σ_{edges j → i, self-loops included} d_j^{-1/2} w_{ji} d_i^{-1/2} (H W₂)_j + b₂) W_p + b_p`:
    the reference's stage for the same buffer, the program's result. -/
theorem tail_v154 (W : Valuation τ sig (Elt F))
    (x0 : (⟨S100000x1005, .f32⟩ : BufTy).Contents (Elt F)) (x1 : (⟨S2x1600000, .i32⟩ : BufTy).Contents (Elt F)) (x2 : (⟨S1600000, .f32⟩ : BufTy).Contents (Elt F)) (x3 : (⟨S3x250, .f32⟩ : BufTy).Contents (Elt F))
    (x4 : (⟨S11x250, .f32⟩ : BufTy).Contents (Elt F)) (x5 : (⟨S256x85, .f32⟩ : BufTy).Contents (Elt F)) (x6 : (⟨S1755x128, .f32⟩ : BufTy).Contents (Elt F)) (x7 : (⟨S128, .f32⟩ : BufTy).Contents (Elt F))
    (x8 : (⟨S128x32, .f32⟩ : BufTy).Contents (Elt F)) (x9 : (⟨S32, .f32⟩ : BufTy).Contents (Elt F)) (x10 : (⟨S32x3, .f32⟩ : BufTy).Contents (Elt F)) (x11 : (⟨S3, .f32⟩ : BufTy).Contents (Elt F))
    (h95 : W main_v95 = val_main_v95 (F := F) x0 x1 x2 x3 x4 x5 x6 x7 x8)
    (h36 : W main_v36 = val_main_v36 (F := F) x1)
    (h38 : W main_v38 = val_main_v38 (F := F) x1)
    (h2 : W main_arg2 = x2) (h9 : W main_arg9 = x9) (h10 : W main_arg10 = x10) (h11 : W main_arg11 = x11) :
    StableHlo.after hostOps2_4 (StableHlo.after hostOps2_3 (StableHlo.after hostOps2_2 (StableHlo.after hostOps2_1 (StableHlo.after hostOps2 W)))) main_v154
      = val_main_v154 (F := F) x0 x1 x2 x3 x4 x5 x6 x7 x8 x9 x10 x11 := by
  after_results_simp
  reads_through
  rw [h95, h36, h38, h2, h9, h10, h11]
  rfl

end Cert.KernelIdeal.Chains

end
-- ==== Proof.KiBridge.lean ====
/-
  The two programs compute one function. Between the launch and the result the kernel's program applies the same host
  operations as the reference, with the reference's two matrix products computed by the two row-blocked pallas_calls.
  Walking the fold of the kernel's run: the operations before the first call leave the concatenated embeddings (the
  reference's stage for that buffer); the first call leaves their product with the first weight matrix (the sum over
  the contracted axis, which is what the reference's product is on the extended reals); the operations between the
  calls leave the first layer's output; the second call its product with the second weight matrix; the last
  operations the result. Each step is the reference's stage of the same buffer, as a function of the arguments.
-/
import proofs.«169225_j59287728554039_1_alg».proof.Proof.KiRun
import proofs.«169225_j59287728554039_1_alg».proof.Proof.KiValue0
import proofs.«169225_j59287728554039_1_alg».proof.Proof.KiValue1
import proofs.«169225_j59287728554039_1_alg».proof.Proof.HostChains

set_option maxRecDepth 16384

noncomputable section

namespace Cert.KernelIdeal.Bridge

open Cert.KernelIdeal Cert.KernelIdeal.Gen Cert.KernelIdeal.Mm Cert.KernelIdeal.MmValue Idealize.ShloMosaic Idealize.ShloMosaic.TcCoe Idealize.SL.Sem
open Cert.ReferenceIdeal.Read (val_main_v34 val_main_v36 val_main_v38 val_main_v39 val_main_v94 val_main_v95 val_main_v154 val_main_v39_apply val_main_v95_apply)

variable (m : (ℓ : Loc nD τ sig) → Buf (Elt Ideal) ℓ) (c : Dev nD)

/-! ## Before the first call -/

/-- The concatenated embeddings, as the first call finds them. -/
theorem ent0_v34 : ent0 m c main_v34 = val_main_v34 (F := Ideal) (m ((c.tc : Thread nD τ).loc main_arg0)) (m ((c.tc : Thread nD τ).loc main_arg3)) (m ((c.tc : Thread nD τ).loc main_arg4)) (m ((c.tc : Thread nD τ).loc main_arg5)) :=
  Chains.head_v34 (V0 m c)
theorem ent0_arg6 : ent0 m c main_arg6 = (m ((c.tc : Thread nD τ).loc main_arg6)) :=
  ((V3_of m c main_arg6 (by decide)).trans ((V2_of m c main_arg6 (by decide)).trans (V1_of m c main_arg6 (by decide))))

/-- The first call's product array is the reference's first matrix product. -/
theorem prod0_eq : prod0 m c = val_main_v39 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  calc prod0 m c = G0 (ent0 m c main_v34) (ent0 m c main_arg6) := final0 (ent0 m) c
    _ = G0 (val_main_v34 (F := Ideal) (m ((c.tc : Thread nD τ).loc main_arg0)) (m ((c.tc : Thread nD τ).loc main_arg3)) (m ((c.tc : Thread nD τ).loc main_arg4)) (m ((c.tc : Thread nD τ).loc main_arg5))) (m ((c.tc : Thread nD τ).loc main_arg6)) := congrArg₂ G0 (ent0_v34 m c) (ent0_arg6 m c)
    _ = val_main_v39 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) := funext fun i => (val_main_v39_apply _ _ _ _ _ i).symm

/-! ## Between the calls -/

theorem V4A_prod : V4 m (outsA m) c main_v39 = prod0 m c := by
  show Function.update (V3 m c) main_v39 (outsA m 4 main_v39 c) main_v39 = _
  rw [Function.update_self]; unfold outsA; exact Function.update_self ..

/-- The first layer's output, as the second call finds it. -/
theorem ent1_v94 : ent1 m c main_v94 = val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  Chains.mid_v94 (V4 m (outsA m) c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    ((V4A_prod m c).trans (prod0_eq m c))
    ((V4_of m (outsA m) c main_v36 (by decide)).trans (Chains.head_v36 (V0 m c)))
    ((V4_of m (outsA m) c main_v38 (by decide)).trans (Chains.head_v38 (V0 m c)))
    ((V4_of m (outsA m) c main_arg2 (by decide)).trans ((V3_of m c main_arg2 (by decide)).trans ((V2_of m c main_arg2 (by decide)).trans (V1_of m c main_arg2 (by decide)))))
    ((V4_of m (outsA m) c main_arg7 (by decide)).trans ((V3_of m c main_arg7 (by decide)).trans ((V2_of m c main_arg7 (by decide)).trans (V1_of m c main_arg7 (by decide)))))
theorem ent1_arg8 : ent1 m c main_arg8 = (m ((c.tc : Thread nD τ).loc main_arg8)) :=
  ((V8_of m (outsA m) c main_arg8 (by decide)).trans ((V7_of m (outsA m) c main_arg8 (by decide)).trans ((V6_of m (outsA m) c main_arg8 (by decide)).trans ((V5_of m (outsA m) c main_arg8 (by decide)).trans ((V4_of m (outsA m) c main_arg8 (by decide)).trans ((V3_of m c main_arg8 (by decide)).trans ((V2_of m c main_arg8 (by decide)).trans (V1_of m c main_arg8 (by decide)))))))))

/-- The second call's product array is the reference's second matrix product. -/
theorem prod1_eq : prod1 m c = val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  calc prod1 m c = G1 (ent1 m c main_v94) (ent1 m c main_arg8) := final1 (ent1 m) c
    _ = G1 (val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) := congrArg₂ G1 (ent1_v94 m c) (ent1_arg8 m c)
    _ = val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := funext fun i => (val_main_v95_apply _ _ _ _ _ _ _ _ _ i).symm

/-! ## After the second call -/

/-- The result buffer at the end of the kernel's run is the reference's result, as a function of the arguments. -/
theorem result_eq : V14 m (outs m) c main_v154 = val_main_v154 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  Chains.tail_v154 (V9 m (outs m) c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
    ((V9_prod m c).trans (prod1_eq m c))
    (((V9_of m (outs m) c main_v36 (by decide)).trans ((V8_of m (outs m) c main_v36 (by decide)).trans ((V7_of m (outs m) c main_v36 (by decide)).trans ((V6_of m (outs m) c main_v36 (by decide)).trans ((V5_of m (outs m) c main_v36 (by decide)).trans (V4_of m (outs m) c main_v36 (by decide))))))).trans (Chains.head_v36 (V0 m c)))
    (((V9_of m (outs m) c main_v38 (by decide)).trans ((V8_of m (outs m) c main_v38 (by decide)).trans ((V7_of m (outs m) c main_v38 (by decide)).trans ((V6_of m (outs m) c main_v38 (by decide)).trans ((V5_of m (outs m) c main_v38 (by decide)).trans (V4_of m (outs m) c main_v38 (by decide))))))).trans (Chains.head_v38 (V0 m c)))
    ((V9_of m (outs m) c main_arg2 (by decide)).trans ((V8_of m (outs m) c main_arg2 (by decide)).trans ((V7_of m (outs m) c main_arg2 (by decide)).trans ((V6_of m (outs m) c main_arg2 (by decide)).trans ((V5_of m (outs m) c main_arg2 (by decide)).trans ((V4_of m (outs m) c main_arg2 (by decide)).trans ((V3_of m c main_arg2 (by decide)).trans ((V2_of m c main_arg2 (by decide)).trans (V1_of m c main_arg2 (by decide))))))))))
    ((V9_of m (outs m) c main_arg9 (by decide)).trans ((V8_of m (outs m) c main_arg9 (by decide)).trans ((V7_of m (outs m) c main_arg9 (by decide)).trans ((V6_of m (outs m) c main_arg9 (by decide)).trans ((V5_of m (outs m) c main_arg9 (by decide)).trans ((V4_of m (outs m) c main_arg9 (by decide)).trans ((V3_of m c main_arg9 (by decide)).trans ((V2_of m c main_arg9 (by decide)).trans (V1_of m c main_arg9 (by decide))))))))))
    ((V9_of m (outs m) c main_arg10 (by decide)).trans ((V8_of m (outs m) c main_arg10 (by decide)).trans ((V7_of m (outs m) c main_arg10 (by decide)).trans ((V6_of m (outs m) c main_arg10 (by decide)).trans ((V5_of m (outs m) c main_arg10 (by decide)).trans ((V4_of m (outs m) c main_arg10 (by decide)).trans ((V3_of m c main_arg10 (by decide)).trans ((V2_of m c main_arg10 (by decide)).trans (V1_of m c main_arg10 (by decide))))))))))
    ((V9_of m (outs m) c main_arg11 (by decide)).trans ((V8_of m (outs m) c main_arg11 (by decide)).trans ((V7_of m (outs m) c main_arg11 (by decide)).trans ((V6_of m (outs m) c main_arg11 (by decide)).trans ((V5_of m (outs m) c main_arg11 (by decide)).trans ((V4_of m (outs m) c main_arg11 (by decide)).trans ((V3_of m c main_arg11 (by decide)).trans ((V2_of m c main_arg11 (by decide)).trans (V1_of m c main_arg11 (by decide))))))))))

end Cert.KernelIdeal.Bridge

end
-- ==== Proof.lean ====
/-
  Two graph-convolution layers over 100000 nodes and 1.7 million edges (self loops included), then a 32 × 3 projection. The
  kernel's program and the reference apply the same host operations — embedding lookups and their concatenation, the
  degree scatter, the symmetric normalisation, gather by source, scatter-add by destination, bias, relu, the last
  projection — and differ only in the two dense products h · W1 and h1 · W2: the reference takes each as one
  matrix product, the kernel as a Pallas call over blocks of rows (100 blocks of 1000 rows, then 10 blocks of 10000),
  each block rounded to bf16 and multiplied into a zero accumulator. On the extended reals rounding is the identity and a
  block's product entry is the same sum over the contracted axis as the whole product's entry, so the two programs
  compute one function of the arguments; no algebraic law beyond reading both sums index by index is used, and the
  finiteness of the inputs is never needed.

  The three frames: each program terminates without a fault and leaves its arguments unchanged (the kernel's two, at
  the word-level and the ideal instance, from the run of its host stretches and its two pallas_calls; the reference's
  from its run). The ideal pass rewrote nothing, so the idealization claim is trivial.
-/
import proofs.«169225_j59287728554039_1_alg».proof.Defs
import proofs.«169225_j59287728554039_1_alg».proof.Proof.Gen.Kernel
import proofs.«169225_j59287728554039_1_alg».proof.Proof.Gen.KernelIdeal
import proofs.«169225_j59287728554039_1_alg».proof.Proof.Gen.ReferenceIdeal
import proofs.«169225_j59287728554039_1_alg».proof.Proof.Gen.ReferenceIdeal.Read
import proofs.«169225_j59287728554039_1_alg».proof.Proof.Gen.Pre_finite_inputs
import proofs.«169225_j59287728554039_1_alg».proof.Proof.KRun
import proofs.«169225_j59287728554039_1_alg».proof.Proof.KiRun
import proofs.«169225_j59287728554039_1_alg».proof.Proof.KiBridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Mm.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Mm.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with equal results: the kernel's result buffer ends at the last host stretch's term over the second
    product, which is the reference's result stage of the arguments (`Bridge.result_eq`); the reference's run ends at that
    stage of its own arguments, which agree with the kernel's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.V14 m (Cert.KernelIdeal.Mm.outs m) c Cert.KernelIdeal.main_v154, Cert.KernelIdeal.Mm.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v154_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1,
    (hagree c).2.2.2.2.2.2.2.2.2.1, (hagree c).2.2.2.2.2.2.2.2.2.2.1, (hagree c).2.2.2.2.2.2.2.2.2.2.2]
  exact (Cert.KernelIdeal.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
